-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S40 .f32) (main_v63 : IVec S_ 1) (main_v67 : IVec S_ 1) : IVec S_ 1 :=
  let main_v68 : IVec S_ 1 := andi main_v63 main_v67
  let main_v69 : FVec F S40 .f32 := Host.absf main_arg15
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  main_v73

def fn_part3 {F : FTy → Type} [FloatOps F] (main_arg12 : FVec F S64x64 .f32) (main_arg13 : FVec F S64 .f32) (main_arg14 : FVec F S64x40 .f32) (main_arg15 : FVec F S40 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x40 .f32 := Host.absf main_arg14
  let main_cst_24 : FVec F S_ .f32 := constant S_ .f32 0x7F800000#32
  let main_v65 : FVec F S64x40 .f32 := broadcastInDim S64x40 ![] bcast_S_S64x40 main_cst_24
  let main_v66 : IVec S64x40 1 := cmpf .olt main_v64 main_v65
  let main_c_25 : IVec S_ 1 := constantI S_ 1 1#1
  let main_v67 : IVec S_ 1 := (fun x v => Host.reduce IntOp.andi x v reducesTo_S64x40_S_d0_1 h_S_) main_v66 main_c_25
  fn_part4 (F := F) main_arg15 main_v63 main_v67

def fn_part2 {F : FTy → Type} [FloatOps F] (main_arg8 : FVec F S64 .f32) (main_arg9 : FVec F S64 .f32) (main_arg10 : FVec F S64 .f32) (main_arg11 : FVec F S64 .f32) (main_arg12 : FVec F S64x64 .f32) (main_arg13 : FVec F S64 .f32) (main_arg14 : FVec F S64x40 .f32) (main_arg15 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64x64 .f32) (main_arg13 : FVec F S64 .f32) (main_arg14 : FVec F S64x40 .f32) (main_arg15 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64x64 .f32) (main_arg13 : FVec F S64 .f32) (main_arg14 : FVec F S64x40 .f32) (main_arg15 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S5000 : Shape := ⟨1, ![5000]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 143
  | .vmem => 54
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64x64, .f32⟩
  | 13 => ⟨S64, .f32⟩
  | 14 => ⟨S64x40, .f32⟩
  | 15 => ⟨S40, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S100000, .f32⟩
  | 57 => ⟨S100000x1, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S1600000x1, .f32⟩
  | 69 => ⟨S1600000x64, .f32⟩
  | 70 => ⟨S1600000x64, .f32⟩
  | 71 => ⟨S_, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S100000x64, .f32⟩
  | 82 => ⟨S1x64, .f32⟩
  | 83 => ⟨S1x64, .f32⟩
  | 84 => ⟨S1x64, .f32⟩
  | 85 => ⟨S100000x64, .f32⟩
  | 86 => ⟨S100000x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S1600000x1, .f32⟩
  | 97 => ⟨S1600000x64, .f32⟩
  | 98 => ⟨S1600000x64, .f32⟩
  | 99 => ⟨S_, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S100000x64, .f32⟩
  | 110 => ⟨S1x64, .f32⟩
  | 111 => ⟨S1x64, .f32⟩
  | 112 => ⟨S1x64, .f32⟩
  | 113 => ⟨S100000x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S1600000x1, .f32⟩
  | 125 => ⟨S1600000x64, .f32⟩
  | 126 => ⟨S1600000x64, .f32⟩
  | 127 => ⟨S_, .f32⟩
  | _ => ⟨S100000x128, .f32⟩

abbrev hbmTy0_1 (i : Nat) : BufTy := match i % 128 with
  | 0 => ⟨S100000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S100000x64, .f32⟩
  | 10 => ⟨S1x64, .f32⟩
  | 11 => ⟨S100000x64, .f32⟩
  | 12 => ⟨S1x64, .f32⟩
  | 13 => ⟨S1x40, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x1, .f32⟩
  | .local _ .vmem, ⟨42, _⟩ => ⟨S5000x1, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x40, .f32⟩
  | .local _ .vmem, ⟨51, _⟩ => ⟨S1x40, .f32⟩
  | .local _ .vmem, ⟨52, _⟩ => ⟨S5000x40, .f32⟩
  | .local _ .vmem, ⟨53, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_17 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_c_20 : Ref sig .tc := ⟨.hbm, 129, rfl⟩
abbrev main_v91 : Ref sig .tc := ⟨.hbm, 130, rfl⟩
abbrev main_v92 : Ref sig .tc := ⟨.hbm, 131, rfl⟩
abbrev main_c_21 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x40 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x40 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x40.size a ≤ S64x40.size a
  hwx6_3 : ∀ i : grid6.Coords, EltTy.bits .f32 = 32 ∨ (Rect.block (s := S64x40) S64x40.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x40.size a ≤ S1x40.size a
  hwx6_4 : ∀ i : grid6.Coords, EltTy.bits .f32 = 32 ∨ (Rect.block (s := S1x40) S1x40.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x40.size a ≤ S100000x40.size a
  hwx6_5 : ∀ i : grid6.Coords, EltTy.bits .f32 = 32 ∨ (Rect.block (s := S100000x40) S5000x40.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v78) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v97) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v99) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S64x40.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S1x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v102) S5000x40.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 225
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64x64, .f32⟩
  | 13 => ⟨S64, .f32⟩
  | 14 => ⟨S64x40, .f32⟩
  | 15 => ⟨S40, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S100000, .f32⟩
  | 57 => ⟨S100000x64, .f32⟩
  | 58 => ⟨S_, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S1600000x1, .f32⟩
  | 70 => ⟨S1600000x64, .f32⟩
  | 71 => ⟨S1600000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S100000x64, .f32⟩
  | 81 => ⟨S100000x1, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x64, .f32⟩
  | 98 => ⟨S100000x64, .f32⟩
  | 99 => ⟨S100000x64, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x64, .f32⟩
  | 107 => ⟨S100000x64, .f32⟩
  | 108 => ⟨S_, .f32⟩
  | 109 => ⟨S100000x1, .f32⟩
  | 110 => ⟨S100000x1, .f32⟩
  | 111 => ⟨S100000x1, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S100000x64, .f32⟩
  | 121 => ⟨S_, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x1, .f32⟩
  | 5 => ⟨S1600000x64, .f32⟩
  | 6 => ⟨S1600000x64, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S100000x64, .f32⟩
  | 16 => ⟨S100000x1, .f32⟩
  | 17 => ⟨S100000x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x64, .f32⟩
  | 33 => ⟨S100000x64, .f32⟩
  | 34 => ⟨S100000x64, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x64, .f32⟩
  | 42 => ⟨S100000x64, .f32⟩
  | 43 => ⟨S_, .f32⟩
  | 44 => ⟨S100000x1, .f32⟩
  | 45 => ⟨S100000x1, .f32⟩
  | 46 => ⟨S100000x1, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x1, .f32⟩
  | 68 => ⟨S1600000x64, .f32⟩
  | 69 => ⟨S1600000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S100000x64, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S100000x40, .f32⟩
  | 94 => ⟨S1x40, .f32⟩
  | 95 => ⟨S100000x40, .f32⟩
  | 96 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call0_cst : Ref sig .tc := ⟨.hbm, 88, rfl⟩
abbrev main_call0_v0 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_c_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_20 : Ref sig .tc := ⟨.hbm, 135, rfl⟩
abbrev main_v95 : Ref sig .tc := ⟨.hbm, 136, rfl⟩
abbrev main_v96 : Ref sig .tc := ⟨.hbm, 137, rfl⟩
abbrev main_c_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call1_cst : Ref sig .tc := ⟨.hbm, 151, rfl⟩
abbrev main_call1_v0 : Ref sig .tc := ⟨.hbm, 152, rfl⟩
abbrev main_v109 : Ref sig .tc := ⟨.hbm, 153, rfl⟩
abbrev main_cst_22 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_24 : Ref sig .tc := ⟨.hbm, 163, rfl⟩
abbrev main_v117 : Ref sig .tc := ⟨.hbm, 164, rfl⟩
abbrev main_v118 : Ref sig .tc := ⟨.hbm, 165, rfl⟩
abbrev main_cst_25 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_26 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_27 : Ref sig .tc := ⟨.hbm, 184, rfl⟩
abbrev main_v135 : Ref sig .tc := ⟨.hbm, 185, rfl⟩
abbrev main_c_28 : Ref sig .tc := ⟨.hbm, 186, rfl⟩
abbrev main_v136 : Ref sig .tc := ⟨.hbm, 187, rfl⟩
abbrev main_v137 : Ref sig .tc := ⟨.hbm, 188, rfl⟩
abbrev main_c_29 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_c_30 : Ref sig .tc := ⟨.hbm, 198, rfl⟩
abbrev main_v146 : Ref sig .tc := ⟨.hbm, 199, rfl⟩
abbrev main_v147 : Ref sig .tc := ⟨.hbm, 200, rfl⟩
abbrev main_c_31 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_call2_cst : Ref sig .tc := ⟨.hbm, 214, rfl⟩
abbrev main_call2_v0 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Boundary.lean ====
/- How a buffer travels through the idealized kernel's run.

  The run is a fold over twelve segments: host stretches (boundaries 0→1, 2→3, 5→6, 8→9, 10→11) and tiled regions
  (1→2, 3→4, 4→5, 6→7, 7→8, 9→10, 11→12).  A host stretch changes only the buffers its operations write; a region
  changes only its OUTPUT window's array (an input window's array is read, staged and left alone).  So a buffer is
  followed backwards, boundary by boundary, to the segment that last wrote it: one lemma per boundary, generic in
  the buffer, with the side condition decided over the finitely many references.
-/
import proofs.«103953_j87402584473801_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## Host stretches -/

/-- The buffers the host stretch entered at boundary 0 writes. -/
abbrev written0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]

theorem hostOps0_writes : (hostOps0 : List (HloOp τ sig (Elt F))).Forall fun op =>
    op.writes ⊆ ((written0).map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer that stretch does not write is the same on both sides of it. -/
theorem keep1 (c : Dev nD) (b : Ref sig .tc) (hb : b ∉ written0) :
    W1 m ρ c (Proc.devRef .tc b) = W0 m ρ c (Proc.devRef .tc b) :=
  StableHlo.after_of_writes_sub hostOps0 (W0 m ρ c) hostOps0_writes hb

/-- The buffers the host stretch entered at boundary 2 writes. -/
abbrev written1 : List (Ref sig .tc) := [main_c_7, main_v34, main_v35, main_c_8, main_v36, main_v37, main_v38, main_v39, main_v40, main_v41, main_v42, main_v43, main_cst_9, main_v44, main_c_10, main_v45, main_v46, main_c_11, main_v47, main_v48, main_v49, main_v50, main_v51, main_v52, main_v53, main_v54]

theorem hostOps1_writes : (hostOps1 : List (HloOp τ sig (Elt F))).Forall fun op =>
    op.writes ⊆ ((written1).map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer that stretch does not write is the same on both sides of it. -/
theorem keep3 (c : Dev nD) (b : Ref sig .tc) (hb : b ∉ written1) :
    W3 m ρ c (Proc.devRef .tc b) = W2 m ρ c (Proc.devRef .tc b) :=
  StableHlo.after_of_writes_sub hostOps1 (W2 m ρ c) hostOps1_writes hb

/-- The buffers the host stretch entered at boundary 5 writes. -/
abbrev written3 : List (Ref sig .tc) := [main_c_12, main_v57, main_v58, main_c_13, main_v59, main_v60, main_v61, main_v62, main_v63, main_v64, main_v65, main_v66, main_cst_14, main_v67, main_c_15, main_v68, main_v69, main_c_16, main_v70, main_v71, main_v72, main_v73, main_v74, main_v75, main_v76, main_v77]

theorem hostOps3_writes : (hostOps3 : List (HloOp τ sig (Elt F))).Forall fun op =>
    op.writes ⊆ ((written3).map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer that stretch does not write is the same on both sides of it. -/
theorem keep6 (c : Dev nD) (b : Ref sig .tc) (hb : b ∉ written3) :
    W6 m ρ c (Proc.devRef .tc b) = W5 m ρ c (Proc.devRef .tc b) :=
  StableHlo.after_of_writes_sub hostOps3 (W5 m ρ c) hostOps3_writes hb

/-- The buffers the host stretch entered at boundary 8 writes. -/
abbrev written5 : List (Ref sig .tc) := [main_c_17, main_v80, main_v81, main_c_18, main_v82, main_v83, main_v84, main_v85, main_v86, main_v87, main_v88, main_v89, main_cst_19, main_v90, main_c_20, main_v91, main_v92, main_c_21, main_v93, main_v94, main_v95, main_v96, main_v97, main_v98]

theorem hostOps5_writes : (hostOps5 : List (HloOp τ sig (Elt F))).Forall fun op =>
    op.writes ⊆ ((written5).map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer that stretch does not write is the same on both sides of it. -/
theorem keep9 (c : Dev nD) (b : Ref sig .tc) (hb : b ∉ written5) :
    W9 m ρ c (Proc.devRef .tc b) = W8 m ρ c (Proc.devRef .tc b) :=
  StableHlo.after_of_writes_sub hostOps5 (W8 m ρ c) hostOps5_writes hb

/-- The buffers the host stretch entered at boundary 10 writes. -/
abbrev written6 : List (Ref sig .tc) := [main_v100, main_v101]

theorem hostOps6_writes : (hostOps6 : List (HloOp τ sig (Elt F))).Forall fun op =>
    op.writes ⊆ ((written6).map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer that stretch does not write is the same on both sides of it. -/
theorem keep11 (c : Dev nD) (b : Ref sig .tc) (hb : b ∉ written6) :
    W11 m ρ c (Proc.devRef .tc b) = W10 m ρ c (Proc.devRef .tc b) :=
  StableHlo.after_of_writes_sub hostOps6 (W10 m ρ c) hostOps6_writes hb

/-! ## Regions -/

/-- Region 0 leaves a buffer that is none of its arrays as it found it. -/
theorem keep2 (c : Dev nD) (b : Ref sig .tc) (hb : ∀ w, Pipeline.arrRef spec0 w ≠ b) :
    W2 m ρ c (Proc.devRef .tc b) = W1 m ρ c (Proc.devRef .tc b) := W2_of_ne m ρ c b hb

/-- Region 0 leaves the array of an INPUT window as it found it. -/
theorem input2 (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- Region 1 leaves a buffer that is none of its arrays as it found it. -/
theorem keep4 (c : Dev nD) (b : Ref sig .tc) (hb : ∀ w, Pipeline.arrRef spec1 w ≠ b) :
    W4 m ρ c (Proc.devRef .tc b) = W3 m ρ c (Proc.devRef .tc b) := W4_of_ne m ρ c b hb

/-- Region 1 leaves the array of an INPUT window as it found it. -/
theorem input4 (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- Region 2 leaves a buffer that is none of its arrays as it found it. -/
theorem keep5 (c : Dev nD) (b : Ref sig .tc) (hb : ∀ w, Pipeline.arrRef spec2 w ≠ b) :
    W5 m ρ c (Proc.devRef .tc b) = W4 m ρ c (Proc.devRef .tc b) := W5_of_ne m ρ c b hb

/-- Region 2 leaves the array of an INPUT window as it found it. -/
theorem input5 (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hin _).trans (A_eq2 (V4 m ρ) c w))

/-- Region 3 leaves a buffer that is none of its arrays as it found it. -/
theorem keep7 (c : Dev nD) (b : Ref sig .tc) (hb : ∀ w, Pipeline.arrRef spec3 w ≠ b) :
    W7 m ρ c (Proc.devRef .tc b) = W6 m ρ c (Proc.devRef .tc b) := W7_of_ne m ρ c b hb

/-- Region 3 leaves the array of an INPUT window as it found it. -/
theorem input7 (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))

/-- Region 4 leaves a buffer that is none of its arrays as it found it. -/
theorem keep8 (c : Dev nD) (b : Ref sig .tc) (hb : ∀ w, Pipeline.arrRef spec4 w ≠ b) :
    W8 m ρ c (Proc.devRef .tc b) = W7 m ρ c (Proc.devRef .tc b) := W8_of_ne m ρ c b hb

/-- Region 4 leaves the array of an INPUT window as it found it. -/
theorem input8 (c : Dev nD) (w : Fin cfg4.W) (hin : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hin _).trans (A_eq4 (V7 m ρ) c w))

/-- Region 5 leaves a buffer that is none of its arrays as it found it. -/
theorem keep10 (c : Dev nD) (b : Ref sig .tc) (hb : ∀ w, Pipeline.arrRef spec5 w ≠ b) :
    W10 m ρ c (Proc.devRef .tc b) = W9 m ρ c (Proc.devRef .tc b) := W10_of_ne m ρ c b hb

/-- Region 5 leaves the array of an INPUT window as it found it. -/
theorem input10 (c : Dev nD) (w : Fin cfg5.W) (hin : (cfg5.win w).isOut = false) :
    W10 m ρ c (Proc.devRef .tc (Pipeline.arrRef spec5 w)) = W9 m ρ c (Proc.devRef .tc (Pipeline.arrRef spec5 w)) :=
  (W10_arr m ρ c w).trans (((dat5 (V9 m ρ) c).arrAt_in w hin _).trans (A_eq5 (V9 m ρ) c w))

/-- Region 6 leaves a buffer that is none of its arrays as it found it. -/
theorem keep12 (c : Dev nD) (b : Ref sig .tc) (hb : ∀ w, Pipeline.arrRef spec6 w ≠ b) :
    W12 m ρ c (Proc.devRef .tc b) = W11 m ρ c (Proc.devRef .tc b) := W12_of_ne m ρ c b hb

/-- Region 6 leaves the array of an INPUT window as it found it. -/
theorem input12 (c : Dev nD) (w : Fin cfg6.W) (hin : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hin _).trans (A_eq6 (V11 m ρ) c w))

/-- At launch a buffer holds the launch memory. -/
theorem launch (c : Dev nD) (b : Ref sig .tc) : W0 m ρ c (Proc.devRef .tc b) = m ((c : Thread nD τ).loc b) := rfl

end Cert.KernelIdeal.Boundary

end
-- ==== Proof.LibVecRowCol.lean ====
/-
  A vector seen as a row or as a column: the reshape of an `[a]` array to `[1, a]` (to `[a, 1]`) and its
  `broadcast_in_dim` along axis 1 (axis 0) into the same shape are one function — both read, at `(u, i)`
  (at `(i, u)`), the vector's entry `i`, the unit coordinate `u` carrying nothing.
-/
import Idealize.ShloMosaic.Lib.ValueLayout
import Idealize.ShloMosaic.Lib.Pipeline.Value

namespace Cert.LibVecRowCol

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along axis 1 into `[1, a]` reads, at `(u, i)`, its entry `i`. -/
theorem bcast_row_apply {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- A vector broadcast along axis 0 into `[a, 1]` reads, at `(i, u)`, its entry `i`. -/
theorem bcast_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The reshape of a vector to a row is its broadcast along axis 1. -/
theorem row_cast_eq_bcast {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨u, i, rfl⟩ : ∃ (u : Fin 1) (i : Fin a), j = ix2 u i := ⟨j 0, j 1, eq_ix2 j⟩
  rw [shapeCast_a_1a_apply, bcast_row_apply]

/-- The reshape of a vector to a column is its broadcast along axis 0. -/
theorem col_cast_eq_bcast {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨i, u, rfl⟩ : ∃ (i : Fin a) (u : Fin 1), j = ix2 i u := ⟨j 0, j 1, eq_ix2 j⟩
  rw [shapeCast_a_a1_apply, bcast_col_apply]

end Cert.LibVecRowCol
-- ==== Proof.HostZero.lean ====
/-
  What the first host stretch leaves, in the reference's own words.

  Before any region runs, the kernel program computes on the host exactly what the reference computes first: the
  two endpoint lists of the edges (each index wrapped into range), the in-degree of every node plus one, its inverse
  square root, the per-edge weight (the product of the two endpoints' inverse roots) and the per-node self-loop
  weight (the inverse root squared).  The operations are the same ones in the same order, so each of these arrays is,
  as a term of the edge list, literally the reference's stage of the same name; the only difference is that the
  kernel program stores the self-loop weights as a one-column matrix.
-/
import proofs.«103953_j87402584473801_1_alg».proof.Proof.Boundary
import proofs.«103953_j87402584473801_1_alg».proof.Proof.RefRead
import proofs.«103953_j87402584473801_1_alg».proof.Proof.LibVecRowCol
import Idealize.ShloMosaic.PureOps.Ideal

set_option maxRecDepth 16384

noncomputable section

namespace Cert.Bridge

open Cert.KernelIdeal Cert.KernelIdeal.Gen Cert.KernelIdeal.Boundary
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The source endpoints (row 0 of the edge list). -/
theorem src1 : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results_simp
  rfl

/-- The destination endpoints (row 1 of the edge list). -/
theorem dst1 : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

/-- The per-edge weight: the product of the two endpoints' inverse square roots of degree plus one. -/
theorem edgeW1 : W1 m ρ c (Proc.devRef .tc main_v30)
    = Cert.ReferenceIdeal.Read.val_main_v30 (F := Ideal) (m ((c : Thread nD τ).loc main_arg1)) := by
  show StableHlo.after hostOps0 (W0 m ρ c) (Proc.devRef .tc main_v30) = _
  after_results_simp
  rfl

/-- The self-loop weights, stored as a one-column matrix: the reference's vector, reshaped. -/
theorem selfW1 : W1 m ρ c (Proc.devRef .tc main_v32)
    = shapeCast S100000x1 (Cert.ReferenceIdeal.Read.val_main_v31 (F := Ideal) (m ((c : Thread nD τ).loc main_arg1)))
        shapeCasts_S100000_S100000x1 := by
  show StableHlo.after hostOps0 (W0 m ρ c) (Proc.devRef .tc main_v32) = _
  after_results_simp
  rfl

/-- Entry `(p, 0)` of that column is entry `p` of the reference's vector. -/
theorem selfW1_apply (p : Fin 100000) : (W1 m ρ c (Proc.devRef .tc main_v32) : S100000x1.Idx → EReal) (ix2 p 0)
    = Cert.ReferenceIdeal.Read.val_main_v31 (F := Ideal) (m ((c : Thread nD τ).loc main_arg1)) (ix1 p) := by
  rw [selfW1]
  exact Cert.LibVecRowCol.shapeCast_a_a1_apply _ _ p 0

end Cert.Bridge

end
-- ==== Proof.Hosts.lean ====
/-
  The three later host stretches: gathering along the edges, weighting, and summing into the destinations.

  Between a layer's matrix product `hl` and its combine step both programs run the same host operations: gather the
  rows of `hl` at the edges' sources, multiply each gathered row by its edge's weight, and add the rows into a zero
  table at the edges' destinations.  `aggOf` is that term, spelt with the reference's own stages for the parts that
  depend on the edge list only, so that the reference's three aggregation stages ARE `aggOf` of its three matrix
  products, by unfolding; and the kernel program's aggregation buffers are `aggOf` of whatever its matrix-product
  buffers hold, by running the stretch.  The edge-list arrays and the self-loop weights were computed by the first
  stretch and are only read afterwards, so they are followed back to it boundary by boundary.
  The bias, gain and shift vectors enter the regions reshaped to one-row matrices.
-/
import proofs.«103953_j87402584473801_1_alg».proof.Proof.HostZero
import Idealize.ShloMosaic.Lib.ValueLayout

set_option maxRecDepth 16384

noncomputable section

namespace Cert.Bridge

open Cert.KernelIdeal Cert.KernelIdeal.Gen Cert.KernelIdeal.Boundary
open Idealize.ShloMosaic Idealize.ShloMosaic.TcCoe Idealize.SL.Sem Idealize.ShloMosaic.StableHlo Idealize.ShloMosaic.ValueIdx

/-- Messages summed into their destinations: `hl`'s rows gathered at the sources, weighted per edge, scatter-added. -/
def aggOf (x1 : (⟨Cert.ReferenceIdeal.S2x1600000, .i32⟩ : BufTy).Contents (Elt Ideal))
    (hl : FVec Ideal Cert.ReferenceIdeal.S100000x64 .f32) : FVec Ideal Cert.ReferenceIdeal.S100000x64 .f32 :=
  Host.scatterAdd (F := Ideal) (φ := .f32) Cert.ReferenceIdeal.scatter_S100000x64_S1600000x1_S1600000x64_1_0_0_1
    (Cert.ReferenceIdeal.Read.val_main_v33 (F := Ideal)) (Cert.ReferenceIdeal.Read.val_main_v49 (F := Ideal) x1)
    (mulf (F := Ideal) (φ := .f32)
      (Host.gather (α := Ideal .f32) Cert.ReferenceIdeal.gather_S100000x64_S1600000x1_S1600000x64_1_0_n_n_0_1_164 hl (Cert.ReferenceIdeal.Read.val_main_v39 (F := Ideal) x1))
      (Cert.ReferenceIdeal.Read.val_main_v42 (F := Ideal) x1))

variable (m : (ℓ : Loc nD τ sig) → Buf (Elt Ideal) ℓ) (ρ : Dev nD → PrngReg) (c : Dev nD)

/-! ## The edge-list arrays at the later stretches' entries -/

theorem src2 : W2 m ρ c (Proc.devRef .tc main_v1) = Cert.ReferenceIdeal.Read.val_main_v1 (F := Ideal) (m ((c : Thread nD τ).loc main_arg1)) :=
  (keep2 m ρ c main_v1 (by decide)).trans (src1 m ρ c)
theorem dst2 : W2 m ρ c (Proc.devRef .tc main_v3) = Cert.ReferenceIdeal.Read.val_main_v3 (F := Ideal) (m ((c : Thread nD τ).loc main_arg1)) :=
  (keep2 m ρ c main_v3 (by decide)).trans (dst1 m ρ c)
theorem edgeW2 : W2 m ρ c (Proc.devRef .tc main_v30) = Cert.ReferenceIdeal.Read.val_main_v30 (F := Ideal) (m ((c : Thread nD τ).loc main_arg1)) :=
  (keep2 m ρ c main_v30 (by decide)).trans (edgeW1 m ρ c)

theorem src5 : W5 m ρ c (Proc.devRef .tc main_v1) = Cert.ReferenceIdeal.Read.val_main_v1 (F := Ideal) (m ((c : Thread nD τ).loc main_arg1)) :=
  (keep5 m ρ c main_v1 (by decide)).trans ((keep4 m ρ c main_v1 (by decide)).trans ((keep3 m ρ c main_v1 (by decide)).trans (src2 m ρ c)))
theorem dst5 : W5 m ρ c (Proc.devRef .tc main_v3) = Cert.ReferenceIdeal.Read.val_main_v3 (F := Ideal) (m ((c : Thread nD τ).loc main_arg1)) :=
  (keep5 m ρ c main_v3 (by decide)).trans ((keep4 m ρ c main_v3 (by decide)).trans ((keep3 m ρ c main_v3 (by decide)).trans (dst2 m ρ c)))
theorem edgeW5 : W5 m ρ c (Proc.devRef .tc main_v30) = Cert.ReferenceIdeal.Read.val_main_v30 (F := Ideal) (m ((c : Thread nD τ).loc main_arg1)) :=
  (keep5 m ρ c main_v30 (by decide)).trans ((keep4 m ρ c main_v30 (by decide)).trans ((keep3 m ρ c main_v30 (by decide)).trans (edgeW2 m ρ c)))

theorem src8 : W8 m ρ c (Proc.devRef .tc main_v1) = Cert.ReferenceIdeal.Read.val_main_v1 (F := Ideal) (m ((c : Thread nD τ).loc main_arg1)) :=
  (keep8 m ρ c main_v1 (by decide)).trans ((keep7 m ρ c main_v1 (by decide)).trans ((keep6 m ρ c main_v1 (by decide)).trans (src5 m ρ c)))
theorem dst8 : W8 m ρ c (Proc.devRef .tc main_v3) = Cert.ReferenceIdeal.Read.val_main_v3 (F := Ideal) (m ((c : Thread nD τ).loc main_arg1)) :=
  (keep8 m ρ c main_v3 (by decide)).trans ((keep7 m ρ c main_v3 (by decide)).trans ((keep6 m ρ c main_v3 (by decide)).trans (dst5 m ρ c)))
theorem edgeW8 : W8 m ρ c (Proc.devRef .tc main_v30) = Cert.ReferenceIdeal.Read.val_main_v30 (F := Ideal) (m ((c : Thread nD τ).loc main_arg1)) :=
  (keep8 m ρ c main_v30 (by decide)).trans ((keep7 m ρ c main_v30 (by decide)).trans ((keep6 m ρ c main_v30 (by decide)).trans (edgeW5 m ρ c)))

/-! ## The self-loop column at the three combine regions' entries (an input window of each, never written again) -/

theorem selfW3 : W3 m ρ c (Proc.devRef .tc main_v32) = W1 m ρ c (Proc.devRef .tc main_v32) :=
  (keep3 m ρ c main_v32 (by decide)).trans (keep2 m ρ c main_v32 (by decide))
theorem selfW6 : W6 m ρ c (Proc.devRef .tc main_v32) = W1 m ρ c (Proc.devRef .tc main_v32) :=
  (keep6 m ρ c main_v32 (by decide)).trans ((keep5 m ρ c main_v32 (by decide)).trans ((input4 m ρ c 2 rfl).trans (selfW3 m ρ c)))
theorem selfW9 : W9 m ρ c (Proc.devRef .tc main_v32) = W1 m ρ c (Proc.devRef .tc main_v32) :=
  (keep9 m ρ c main_v32 (by decide)).trans ((keep8 m ρ c main_v32 (by decide)).trans ((input7 m ρ c 2 rfl).trans (selfW6 m ρ c)))

/-! ## The aggregations -/

/-- The first layer's aggregation buffer, given what the first matrix-product buffer holds. -/
theorem agg3 (hl : FVec Ideal Cert.ReferenceIdeal.S100000x64 .f32)
    (h : W2 m ρ c (Proc.devRef .tc main_v33) = hl) :
    W3 m ρ c (Proc.devRef .tc main_v51) = aggOf (m ((c : Thread nD τ).loc main_arg1)) hl := by
  show StableHlo.after hostOps1 (W2 m ρ c) (Proc.devRef .tc main_v51) = _
  after_results_simp
  rw [h, dst2, src2, edgeW2]
  rfl

/-- The second layer's. -/
theorem agg6 (hl : FVec Ideal Cert.ReferenceIdeal.S100000x64 .f32)
    (h : W5 m ρ c (Proc.devRef .tc main_v56) = hl) :
    W6 m ρ c (Proc.devRef .tc main_v74) = aggOf (m ((c : Thread nD τ).loc main_arg1)) hl := by
  show StableHlo.after hostOps3 (W5 m ρ c) (Proc.devRef .tc main_v74) = _
  after_results_simp
  rw [h, dst5, src5, edgeW5]
  rfl

/-- The third layer's. -/
theorem agg9 (hl : FVec Ideal Cert.ReferenceIdeal.S100000x64 .f32)
    (h : W8 m ρ c (Proc.devRef .tc main_v79) = hl) :
    W9 m ρ c (Proc.devRef .tc main_v97) = aggOf (m ((c : Thread nD τ).loc main_arg1)) hl := by
  show StableHlo.after hostOps5 (W8 m ρ c) (Proc.devRef .tc main_v97) = _
  after_results_simp
  rw [h, dst8, src8, edgeW8]
  rfl

/-- The reference's three aggregation stages are `aggOf` of its three matrix products: the same operations on the same
    edge list (its second and third copies of the index wrapping unfold to the first). -/
theorem ref_agg1 (x0 x1 x2) : Cert.ReferenceIdeal.Read.val_main_v50 (F := Ideal) x0 x1 x2 = aggOf x1 (Cert.ReferenceIdeal.Read.val_main_v32 (F := Ideal) x0 x2) := rfl

/-! ## An argument array at a later boundary: nothing ever writes it, so it is the launch memory -/

theorem arg_at2 (b : Ref sig .tc) (h2 : ∀ w, Pipeline.arrRef spec0 w ≠ b) (h1 : b ∉ written0) :
    W2 m ρ c (Proc.devRef .tc b) = m ((c : Thread nD τ).loc b) :=
  (keep2 m ρ c b h2).trans ((keep1 m ρ c b h1).trans (launch m ρ c b))

theorem arg_at5 (b : Ref sig .tc) (h5 : ∀ w, Pipeline.arrRef spec2 w ≠ b) (h4 : ∀ w, Pipeline.arrRef spec1 w ≠ b) (h3 : b ∉ written1)
    (h2 : ∀ w, Pipeline.arrRef spec0 w ≠ b) (h1 : b ∉ written0) :
    W5 m ρ c (Proc.devRef .tc b) = m ((c : Thread nD τ).loc b) :=
  (keep5 m ρ c b h5).trans ((keep4 m ρ c b h4).trans ((keep3 m ρ c b h3).trans (arg_at2 m ρ c b h2 h1)))

theorem arg_at8 (b : Ref sig .tc) (h8 : ∀ w, Pipeline.arrRef spec4 w ≠ b) (h7 : ∀ w, Pipeline.arrRef spec3 w ≠ b) (h6 : b ∉ written3)
    (h5 : ∀ w, Pipeline.arrRef spec2 w ≠ b) (h4 : ∀ w, Pipeline.arrRef spec1 w ≠ b) (h3 : b ∉ written1)
    (h2 : ∀ w, Pipeline.arrRef spec0 w ≠ b) (h1 : b ∉ written0) :
    W8 m ρ c (Proc.devRef .tc b) = m ((c : Thread nD τ).loc b) :=
  (keep8 m ρ c b h8).trans ((keep7 m ρ c b h7).trans ((keep6 m ρ c b h6).trans (arg_at5 m ρ c b h5 h4 h3 h2 h1)))

theorem arg_at10 (b : Ref sig .tc) (h10 : ∀ w, Pipeline.arrRef spec5 w ≠ b) (h9 : b ∉ written5)
    (h8 : ∀ w, Pipeline.arrRef spec4 w ≠ b) (h7 : ∀ w, Pipeline.arrRef spec3 w ≠ b) (h6 : b ∉ written3)
    (h5 : ∀ w, Pipeline.arrRef spec2 w ≠ b) (h4 : ∀ w, Pipeline.arrRef spec1 w ≠ b) (h3 : b ∉ written1)
    (h2 : ∀ w, Pipeline.arrRef spec0 w ≠ b) (h1 : b ∉ written0) :
    W10 m ρ c (Proc.devRef .tc b) = m ((c : Thread nD τ).loc b) :=
  (keep10 m ρ c b h10).trans ((keep9 m ρ c b h9).trans (arg_at8 m ρ c b h8 h7 h6 h5 h4 h3 h2 h1))

/-! ## The bias, gain and shift rows: a 64-vector (a 40-vector) argument reshaped to one row -/

/-- Entry `(0, j)` of a vector reshaped to a one-row matrix is the vector's entry `j`. -/
theorem row64_apply (x : S64.Idx → EReal) (j : Fin 64) : shapeCast S1x64 x shapeCasts_S64_S1x64 (ix2 0 j) = x (ix1 j) :=
  shapeCast_a_1a_apply x shapeCasts_S64_S1x64 0 j
theorem row40_apply (x : S40.Idx → EReal) (l : Fin 40) : shapeCast S1x40 x shapeCasts_S40_S1x40 (ix2 0 l) = x (ix1 l) :=
  shapeCast_a_1a_apply x shapeCasts_S40_S1x40 0 l

theorem bias3 (j : Fin 64) : (W3 m ρ c (Proc.devRef .tc main_v52) : S1x64.Idx → EReal) (ix2 0 j) = m ((c : Thread nD τ).loc main_arg3) (ix1 j) := by
  have e : W3 m ρ c (Proc.devRef .tc main_v52) = shapeCast S1x64 (W2 m ρ c (Proc.devRef .tc main_arg3)) shapeCasts_S64_S1x64 := by
    show StableHlo.after hostOps1 (W2 m ρ c) (Proc.devRef .tc main_v52) = _
    after_results_simp
    rfl
  rw [e, arg_at2 m ρ c main_arg3 (by decide) (by decide)]
  exact row64_apply _ j

theorem gain3 (j : Fin 64) : (W3 m ρ c (Proc.devRef .tc main_v53) : S1x64.Idx → EReal) (ix2 0 j) = m ((c : Thread nD τ).loc main_arg8) (ix1 j) := by
  have e : W3 m ρ c (Proc.devRef .tc main_v53) = shapeCast S1x64 (W2 m ρ c (Proc.devRef .tc main_arg8)) shapeCasts_S64_S1x64 := by
    show StableHlo.after hostOps1 (W2 m ρ c) (Proc.devRef .tc main_v53) = _
    after_results_simp
    rfl
  rw [e, arg_at2 m ρ c main_arg8 (by decide) (by decide)]
  exact row64_apply _ j

theorem shift3 (j : Fin 64) : (W3 m ρ c (Proc.devRef .tc main_v54) : S1x64.Idx → EReal) (ix2 0 j) = m ((c : Thread nD τ).loc main_arg9) (ix1 j) := by
  have e : W3 m ρ c (Proc.devRef .tc main_v54) = shapeCast S1x64 (W2 m ρ c (Proc.devRef .tc main_arg9)) shapeCasts_S64_S1x64 := by
    show StableHlo.after hostOps1 (W2 m ρ c) (Proc.devRef .tc main_v54) = _
    after_results_simp
    rfl
  rw [e, arg_at2 m ρ c main_arg9 (by decide) (by decide)]
  exact row64_apply _ j

theorem bias6 (j : Fin 64) : (W6 m ρ c (Proc.devRef .tc main_v75) : S1x64.Idx → EReal) (ix2 0 j) = m ((c : Thread nD τ).loc main_arg5) (ix1 j) := by
  have e : W6 m ρ c (Proc.devRef .tc main_v75) = shapeCast S1x64 (W5 m ρ c (Proc.devRef .tc main_arg5)) shapeCasts_S64_S1x64 := by
    show StableHlo.after hostOps3 (W5 m ρ c) (Proc.devRef .tc main_v75) = _
    after_results_simp
    rfl
  rw [e, arg_at5 m ρ c main_arg5 (by decide) (by decide) (by decide) (by decide) (by decide)]
  exact row64_apply _ j

theorem gain6 (j : Fin 64) : (W6 m ρ c (Proc.devRef .tc main_v76) : S1x64.Idx → EReal) (ix2 0 j) = m ((c : Thread nD τ).loc main_arg10) (ix1 j) := by
  have e : W6 m ρ c (Proc.devRef .tc main_v76) = shapeCast S1x64 (W5 m ρ c (Proc.devRef .tc main_arg10)) shapeCasts_S64_S1x64 := by
    show StableHlo.after hostOps3 (W5 m ρ c) (Proc.devRef .tc main_v76) = _
    after_results_simp
    rfl
  rw [e, arg_at5 m ρ c main_arg10 (by decide) (by decide) (by decide) (by decide) (by decide)]
  exact row64_apply _ j

theorem shift6 (j : Fin 64) : (W6 m ρ c (Proc.devRef .tc main_v77) : S1x64.Idx → EReal) (ix2 0 j) = m ((c : Thread nD τ).loc main_arg11) (ix1 j) := by
  have e : W6 m ρ c (Proc.devRef .tc main_v77) = shapeCast S1x64 (W5 m ρ c (Proc.devRef .tc main_arg11)) shapeCasts_S64_S1x64 := by
    show StableHlo.after hostOps3 (W5 m ρ c) (Proc.devRef .tc main_v77) = _
    after_results_simp
    rfl
  rw [e, arg_at5 m ρ c main_arg11 (by decide) (by decide) (by decide) (by decide) (by decide)]
  exact row64_apply _ j

theorem bias9 (j : Fin 64) : (W9 m ρ c (Proc.devRef .tc main_v98) : S1x64.Idx → EReal) (ix2 0 j) = m ((c : Thread nD τ).loc main_arg7) (ix1 j) := by
  have e : W9 m ρ c (Proc.devRef .tc main_v98) = shapeCast S1x64 (W8 m ρ c (Proc.devRef .tc main_arg7)) shapeCasts_S64_S1x64 := by
    show StableHlo.after hostOps5 (W8 m ρ c) (Proc.devRef .tc main_v98) = _
    after_results_simp
    rfl
  rw [e, arg_at8 m ρ c main_arg7 (by decide) (by decide) (by decide) (by decide) (by decide) (by decide) (by decide) (by decide)]
  exact row64_apply _ j

theorem bias11 (j : Fin 64) : (W11 m ρ c (Proc.devRef .tc main_v100) : S1x64.Idx → EReal) (ix2 0 j) = m ((c : Thread nD τ).loc main_arg13) (ix1 j) := by
  have e : W11 m ρ c (Proc.devRef .tc main_v100) = shapeCast S1x64 (W10 m ρ c (Proc.devRef .tc main_arg13)) shapeCasts_S64_S1x64 := by
    show StableHlo.after hostOps6 (W10 m ρ c) (Proc.devRef .tc main_v100) = _
    after_results_simp
    rfl
  rw [e, arg_at10 m ρ c main_arg13 (by decide) (by decide) (by decide) (by decide) (by decide) (by decide) (by decide) (by decide) (by decide) (by decide)]
  exact row64_apply _ j

theorem shift11 (j : Fin 40) : (W11 m ρ c (Proc.devRef .tc main_v101) : S1x40.Idx → EReal) (ix2 0 j) = m ((c : Thread nD τ).loc main_arg15) (ix1 j) := by
  have e : W11 m ρ c (Proc.devRef .tc main_v101) = shapeCast S1x40 (W10 m ρ c (Proc.devRef .tc main_arg15)) shapeCasts_S40_S1x40 := by
    show StableHlo.after hostOps6 (W10 m ρ c) (Proc.devRef .tc main_v101) = _
    after_results_simp
    rfl
  rw [e, arg_at10 m ρ c main_arg15 (by decide) (by decide) (by decide) (by decide) (by decide) (by decide) (by decide) (by decide) (by decide) (by decide)]
  exact row40_apply _ j

end Cert.Bridge

end
-- ==== Proof.Spec.lean ====
/-
  The mathematics both programs compute, stated once over plain coordinates, with no program imported.

  A three-layer graph convolution followed by a two-layer affine map.  For a node feature table `h` (one row per
  node), a weight matrix `W`, a per-node self-loop weight `s`, a bias row `b` and an array `a` of aggregated
  neighbour messages, one layer is

      relu (a + (h·W) ⊙ s + b),

  the first two layers followed by a row normalisation: subtract the row's mean, scale by the inverse square
  root of the row's variance plus a small offset, then an affine map with gain `g` and shift `d` per column.
  Everything is read on the extended reals; sums range over a whole row of 64 (or 128, or 40) entries, and no
  law beyond the definitions is used anywhere, so no finiteness is ever needed.
-/
import Idealize.ShloMosaic.PureOps.Ideal

noncomputable section

namespace Cert.GcnSpec

open Idealize.ShloMosaic

/-- The three float words both programs print: zero, sixty-four, and the variance offset (the float nearest 1e-5). -/
abbrev zeroW : EReal := Ideal.ofBits .f32 0x00000000#32
abbrev sixtyFourW : EReal := Ideal.ofBits .f32 0x42800000#32
abbrev epsW : EReal := Ideal.ofBits .f32 0x3727C5AC#32

/-- The matrix product at row `p`, column `j`: the sum over the shared axis. -/
def mm {N K M : Nat} (x : Fin N → Fin K → EReal) (w : Fin K → Fin M → EReal) (p : Fin N) (j : Fin M) : EReal :=
  ∑ k : Fin K, x p k * w k j

/-- One layer before normalisation: aggregated messages plus the self-loop term plus the bias, clipped below at zero. -/
def comb {N M : Nat} (a h : Fin N → Fin M → EReal) (s : Fin N → EReal) (b : Fin M → EReal) (p : Fin N) (j : Fin M) : EReal :=
  max (a p j + h p j * s p + b j) zeroW

/-- The mean of row `p` (the row sum divided by the word sixty-four). -/
def rowMean {N : Nat} (v : Fin N → Fin 64 → EReal) (p : Fin N) : EReal :=
  Ideal.div (∑ j : Fin 64, v p j) sixtyFourW

/-- The variance of row `p`: the mean of the squared deviations from the row's mean. -/
def rowVar {N : Nat} (v : Fin N → Fin 64 → EReal) (p : Fin N) : EReal :=
  Ideal.div (∑ j : Fin 64, (v p j - rowMean v p) * (v p j - rowMean v p)) sixtyFourW

/-- Row normalisation with gain `g` and shift `d`. -/
def rowNorm {N : Nat} (v : Fin N → Fin 64 → EReal) (g d : Fin 64 → EReal) (p : Fin N) (j : Fin 64) : EReal :=
  (v p j - rowMean v p) * Ideal.rsqrt (rowVar v p + epsW) * g j + d j

/-- The closing two-layer affine map: `(h·W₀ + b₀)·W₁ + b₁`. -/
def affine2 {N K M L : Nat} (h : Fin N → Fin K → EReal) (w0 : Fin K → Fin M → EReal) (b0 : Fin M → EReal)
    (w1 : Fin M → Fin L → EReal) (b1 : Fin L → EReal) (p : Fin N) (l : Fin L) : EReal :=
  mm (fun p j => mm h w0 p j + b0 j) w1 p l + b1 l

end Cert.GcnSpec

end
-- ==== Proof.RegionMatmul.lean ====
/-
  The three matrix-product regions, each read as one function of the arrays the region finds.

  Every region of this kind tiles the 100000 rows of its left operand and of its result into 20 blocks of 5000
  rows, and stages the whole right operand (the weight matrix) at every grid point.  The body stores, at row `r` and
  column `j` of the result block, the sum over the shared axis of the left block's row `r` times the weight's column
  `j`.  Row `p` of the result array lies in the block of point `p / 5000`, so the result array is the matrix product
  of the two arrays, entry by entry.
-/
import proofs.«103953_j87402584473801_1_alg».proof.Proof.Spec
import proofs.«103953_j87402584473801_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Cert.GcnSpec
open Idealize.ShloMosaic.Pipeline (Dat)
open Idealize.ShloMosaic.TcCoe

variable (V : (c : Dev nD) → (b : Ref sig .tc) → Buf (Elt Ideal) ((c : Thread nD τ).loc b)) (c : Dev nD)

/-- The zero offsets of a whole-buffer rectangle, as the constant function. -/
theorem zeroOff : (![0, 0] : Fin 2 → Nat) = fun _ => 0 := funext fun a => by fin_cases a <;> rfl

/-! ## The product of a 5000×128 block and a 128×64 weight (region 0) -/

theorem lhsA_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a 5000×128 block and the 128×64 weight at row `r`, column `j`: the sum over the 128 shared coordinates. -/
theorem dotA_apply (l : FVec Ideal S5000x128 .bf16) (w : FVec Ideal S128x64 .bf16) (r : Fin 5000) (j : Fin 64) :
    matmul dot_S5000x128_S128x64_S5000x64_1_0_0_1_n_n none l w (constant S5000x64 .f32 0x00000000#32) (ix2 r j) = ∑ k : Fin 128, l (ix2 r k) * w (ix2 k j) := by
  refine (Ideal.matmul_constant_zero_apply dot_S5000x128_S128x64_S5000x64_1_0_0_1_n_n none l w (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-- Region 0's result block at row `r`, column `j` (the change of float format is the identity on extended reals). -/
theorem pay0_apply (x0 : Vec Ideal S5000x128 .f32) (x1 : Vec Ideal S128x64 .f32) (r : Fin 5000) (j : Fin 64) :
    k0_pay1 (F := Ideal) x0 x1 (ix2 r j) = ∑ k : Fin 128, x0 (ix2 r k) * x1 (ix2 k j) := by
  unfold k0_pay1
  exact dotA_apply _ _ r j

/-- The result array of region 0: the product of the two arrays the region finds, entry by entry. -/
abbrev G0 : S100000x64.Idx → EReal := fun i =>
  mm (N := 100000) (K := 128) (M := 64) (fun p k => V c main_arg0 (ix2 p k)) (fun k j => V c main_arg2 (ix2 k j)) (i 0) (i 1)

/-- The body's result block, from the two staged blocks, at row `r` and column `j` of the block. -/
theorem block0_apply (x0 : Vec Ideal S5000x128 .f32) (x1 : Vec Ideal S128x64 .f32) (r : Fin 5000) (j : Fin 64) :
    out0_2 x0 x1 (ix2 r j) = ∑ k : Fin 128, x0 (ix2 r k) * x1 (ix2 k j) := by
  unfold out0_2
  rw [View.canon_unit_zero zeroOff]
  simp only [View.ld_unit_zero (S := S5000x128) zeroOff, View.ld_unit_zero (S := S128x64) zeroOff]
  exact pay0_apply x0 x1 r j

/-- The printed index maps over the grid: the left operand's and the result's blocks move down the rows with the
    point, the weight's block stays at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks is some point's. -/
theorem idx_onto0 : ∀ q : Fin 20, ∃ t : Fin cfg0.N, win0_2.index t = ![q.val, 0] :=
  (by decide +kernel : ∀ q : Fin 20, ∃ t : Fin grid0.N, win0_2.index t = ![q.val, 0])

/-- What point `t` writes back is block `t` of the product array: row `r` of the block is row `5000 t + r` of the
    left operand's array, and the weight is read at the same index in every block. -/
theorem flushed0_eq (t : Fin cfg0.N) :
    (dat0 V c).flushed 2 t = ((cfg0.win 2).blk t).view.read (Elt Ideal) (G0 V c) := by
  show (cfg0.win 2).cut (grid0.coords t) ((dat0 V c).after 2 t) = _
  rw [after0_2]
  obtain ⟨e0, e1, e2, e3, e4, e5⟩ := idx_facts0 t
  funext y
  obtain ⟨r, j, rfl⟩ : ∃ (r : Fin 5000) (j : Fin 64), y = ix2 r j := ⟨y 0, y 1, eq_ix2 y⟩
  refine (block0_apply (iblk0 V c 0 t) (iblk0 V c 1 t) r j).trans ?_
  show _ = mm (N := 100000) (K := 128) (M := 64) (fun p k => V c main_arg0 (ix2 p k)) (fun k j => V c main_arg2 (ix2 k j))
      ((((cfg0.win 2).blk t).view.emb (ix2 r j)) 0) ((((cfg0.win 2).blk t).view.emb (ix2 r j)) 1)
  unfold mm
  refine Finset.sum_congr rfl fun k _ => congrArg₂ (· * ·) ?_ ?_
  · show V c main_arg0 (((cfg0.win 0).blk t).view.emb (ix2 r k)) = V c main_arg0 (ix2 ((((cfg0.win 2).blk t).view.emb (ix2 r j)) 0) k)
    congr 1
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  · show V c main_arg2 (((cfg0.win 1).blk t).view.emb (ix2 k j)) = V c main_arg2 (ix2 k ((((cfg0.win 2).blk t).view.emb (ix2 r j)) 1))
    congr 1
    funext a; apply Fin.ext
    match a with
    | ⟨0, _⟩ => show win0_1.index t (0 : Fin 2) * 128 + 1 * k.val = k.val; omega
    | ⟨1, _⟩ => show win0_1.index t (1 : Fin 2) * 64 + 1 * j.val = win0_2.index t (1 : Fin 2) * 64 + 1 * j.val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Row `p` lies in the block of point `p / 5000`: the 20 blocks cover the result array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after region 0 is the product array. -/
theorem final0 : (dat0 V c).arrAt 2 cfg0.N = G0 V c :=
  (dat0 V c).arrAt_eq_of_cover 2 (G0 V c) (fun t _ => flushed0_eq V c t) (cover0)

/-- Region 0's result array, entry by entry: the matrix product of the two arrays the region finds. -/
theorem matmul0_array (p : Fin 100000) (j : Fin 64) :
    (dat0 V c).arrAt 2 cfg0.N (ix2 p j) = mm (fun p k => V c main_arg0 (ix2 p k)) (fun k j => V c main_arg2 (ix2 k j)) p j :=
  congrFun (final0 V c) (ix2 p j)

/-! ## The product of a 5000×64 block and a 64×64 weight (regions 2 and 4) -/

theorem lhsB_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000×64 block and the 64×64 weight at row `r`, column `j`: the sum over the 64 shared coordinates. -/
theorem dotB_apply (l : FVec Ideal S5000x64 .bf16) (w : FVec Ideal S64x64 .bf16) (r : Fin 5000) (j : Fin 64) :
    matmul dot_S5000x64_S64x64_S5000x64_1_0_0_1_n_n none l w (constant S5000x64 .f32 0x00000000#32) (ix2 r j) = ∑ k : Fin 64, l (ix2 r k) * w (ix2 k j) := by
  refine (Ideal.matmul_constant_zero_apply dot_S5000x64_S64x64_S5000x64_1_0_0_1_n_n none l w (ix2 r j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-! ## Region 2 -/

/-- Region 2's result block at row `r`, column `j` (the shape cast to the same shape and the change of float format
    are identities). -/
theorem pay2_apply (x0 : Vec Ideal S5000x64 .f32) (x1 : Vec Ideal S64x64 .f32) (r : Fin 5000) (j : Fin 64) :
    k2_pay1 (F := Ideal) x0 x1 (ix2 r j) = ∑ k : Fin 64, x0 (ix2 r k) * x1 (ix2 k j) := by
  unfold k2_pay1
  simp only [shapeCast_self]
  exact dotB_apply _ _ r j

/-- The result array of region 2: the product of the two arrays the region finds, entry by entry. -/
abbrev G2 : S100000x64.Idx → EReal := fun i =>
  mm (N := 100000) (K := 64) (M := 64) (fun p k => V c main_v55 (ix2 p k)) (fun k j => V c main_arg4 (ix2 k j)) (i 0) (i 1)

/-- The body's result block, from the two staged blocks, at row `r` and column `j` of the block. -/
theorem block2_apply (x0 : Vec Ideal S5000x64 .f32) (x1 : Vec Ideal S64x64 .f32) (r : Fin 5000) (j : Fin 64) :
    out2_2 x0 x1 (ix2 r j) = ∑ k : Fin 64, x0 (ix2 r k) * x1 (ix2 k j) := by
  unfold out2_2
  rw [View.canon_unit_zero zeroOff]
  simp only [View.ld_unit_zero (S := S5000x64) zeroOff, View.ld_unit_zero (S := S64x64) zeroOff]
  exact pay2_apply x0 x1 r j

/-- The printed index maps over the grid: the left operand's and the result's blocks move down the rows with the
    point, the weight's block stays at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the 20 row blocks is some point's. -/
theorem idx_onto2 : ∀ q : Fin 20, ∃ t : Fin cfg2.N, win2_2.index t = ![q.val, 0] :=
  (by decide +kernel : ∀ q : Fin 20, ∃ t : Fin grid2.N, win2_2.index t = ![q.val, 0])

/-- What point `t` writes back is block `t` of the product array: row `r` of the block is row `5000 t + r` of the
    left operand's array, and the weight is read at the same index in every block. -/
theorem flushed2_eq (t : Fin cfg2.N) :
    (dat2 V c).flushed 2 t = ((cfg2.win 2).blk t).view.read (Elt Ideal) (G2 V c) := by
  show (cfg2.win 2).cut (grid2.coords t) ((dat2 V c).after 2 t) = _
  rw [after2_2]
  obtain ⟨e0, e1, e2, e3, e4, e5⟩ := idx_facts2 t
  funext y
  obtain ⟨r, j, rfl⟩ : ∃ (r : Fin 5000) (j : Fin 64), y = ix2 r j := ⟨y 0, y 1, eq_ix2 y⟩
  refine (block2_apply (iblk2 V c 0 t) (iblk2 V c 1 t) r j).trans ?_
  show _ = mm (N := 100000) (K := 64) (M := 64) (fun p k => V c main_v55 (ix2 p k)) (fun k j => V c main_arg4 (ix2 k j))
      ((((cfg2.win 2).blk t).view.emb (ix2 r j)) 0) ((((cfg2.win 2).blk t).view.emb (ix2 r j)) 1)
  unfold mm
  refine Finset.sum_congr rfl fun k _ => congrArg₂ (· * ·) ?_ ?_
  · show V c main_v55 (((cfg2.win 0).blk t).view.emb (ix2 r k)) = V c main_v55 (ix2 ((((cfg2.win 2).blk t).view.emb (ix2 r j)) 0) k)
    congr 1
    funext a; apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 64 + 1 * k.val = k.val; omega
  · show V c main_arg4 (((cfg2.win 1).blk t).view.emb (ix2 k j)) = V c main_arg4 (ix2 k ((((cfg2.win 2).blk t).view.emb (ix2 r j)) 1))
    congr 1
    funext a; apply Fin.ext
    match a with
    | ⟨0, _⟩ => show win2_1.index t (0 : Fin 2) * 64 + 1 * k.val = k.val; omega
    | ⟨1, _⟩ => show win2_1.index t (1 : Fin 2) * 64 + 1 * j.val = win2_2.index t (1 : Fin 2) * 64 + 1 * j.val; omega

/-- An index of the result array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v56).slice (win2_2.rect t)).set ↔ _
  rw [View.set_slice_whole, Rect.mem_set_unit]
  exact Iff.rfl

/-- Row `p` lies in the block of point `p / 5000`: the 20 blocks cover the result array. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after region 2 is the product array. -/
theorem final2 : (dat2 V c).arrAt 2 cfg2.N = G2 V c :=
  (dat2 V c).arrAt_eq_of_cover 2 (G2 V c) (fun t _ => flushed2_eq V c t) (cover2)

/-- Region 2's result array, entry by entry: the matrix product of the two arrays the region finds. -/
theorem matmul2_array (p : Fin 100000) (j : Fin 64) :
    (dat2 V c).arrAt 2 cfg2.N (ix2 p j) = mm (fun p k => V c main_v55 (ix2 p k)) (fun k j => V c main_arg4 (ix2 k j)) p j :=
  congrFun (final2 V c) (ix2 p j)

/-! ## Region 4 -/

/-- Region 4's result block at row `r`, column `j` (the shape cast to the same shape and the change of float format
    are identities). -/
theorem pay4_apply (x0 : Vec Ideal S5000x64 .f32) (x1 : Vec Ideal S64x64 .f32) (r : Fin 5000) (j : Fin 64) :
    k4_pay1 (F := Ideal) x0 x1 (ix2 r j) = ∑ k : Fin 64, x0 (ix2 r k) * x1 (ix2 k j) := by
  unfold k4_pay1
  simp only [shapeCast_self]
  exact dotB_apply _ _ r j

/-- The result array of region 4: the product of the two arrays the region finds, entry by entry. -/
abbrev G4 : S100000x64.Idx → EReal := fun i =>
  mm (N := 100000) (K := 64) (M := 64) (fun p k => V c main_v78 (ix2 p k)) (fun k j => V c main_arg6 (ix2 k j)) (i 0) (i 1)

/-- The body's result block, from the two staged blocks, at row `r` and column `j` of the block. -/
theorem block4_apply (x0 : Vec Ideal S5000x64 .f32) (x1 : Vec Ideal S64x64 .f32) (r : Fin 5000) (j : Fin 64) :
    out4_2 x0 x1 (ix2 r j) = ∑ k : Fin 64, x0 (ix2 r k) * x1 (ix2 k j) := by
  unfold out4_2
  rw [View.canon_unit_zero zeroOff]
  simp only [View.ld_unit_zero (S := S5000x64) zeroOff, View.ld_unit_zero (S := S64x64) zeroOff]
  exact pay4_apply x0 x1 r j

/-- The printed index maps over the grid: the left operand's and the result's blocks move down the rows with the
    point, the weight's block stays at the origin. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every one of the 20 row blocks is some point's. -/
theorem idx_onto4 : ∀ q : Fin 20, ∃ t : Fin cfg4.N, win4_2.index t = ![q.val, 0] :=
  (by decide +kernel : ∀ q : Fin 20, ∃ t : Fin grid4.N, win4_2.index t = ![q.val, 0])

/-- What point `t` writes back is block `t` of the product array: row `r` of the block is row `5000 t + r` of the
    left operand's array, and the weight is read at the same index in every block. -/
theorem flushed4_eq (t : Fin cfg4.N) :
    (dat4 V c).flushed 2 t = ((cfg4.win 2).blk t).view.read (Elt Ideal) (G4 V c) := by
  show (cfg4.win 2).cut (grid4.coords t) ((dat4 V c).after 2 t) = _
  rw [after4_2]
  obtain ⟨e0, e1, e2, e3, e4, e5⟩ := idx_facts4 t
  funext y
  obtain ⟨r, j, rfl⟩ : ∃ (r : Fin 5000) (j : Fin 64), y = ix2 r j := ⟨y 0, y 1, eq_ix2 y⟩
  refine (block4_apply (iblk4 V c 0 t) (iblk4 V c 1 t) r j).trans ?_
  show _ = mm (N := 100000) (K := 64) (M := 64) (fun p k => V c main_v78 (ix2 p k)) (fun k j => V c main_arg6 (ix2 k j))
      ((((cfg4.win 2).blk t).view.emb (ix2 r j)) 0) ((((cfg4.win 2).blk t).view.emb (ix2 r j)) 1)
  unfold mm
  refine Finset.sum_congr rfl fun k _ => congrArg₂ (· * ·) ?_ ?_
  · show V c main_v78 (((cfg4.win 0).blk t).view.emb (ix2 r k)) = V c main_v78 (ix2 ((((cfg4.win 2).blk t).view.emb (ix2 r j)) 0) k)
    congr 1
    funext a; apply Fin.ext
    match a with
    | ⟨0, _⟩ => show win4_0.index t (0 : Fin 2) * 5000 + 1 * r.val = win4_2.index t (0 : Fin 2) * 5000 + 1 * r.val; omega
    | ⟨1, _⟩ => show win4_0.index t (1 : Fin 2) * 64 + 1 * k.val = k.val; omega
  · show V c main_arg6 (((cfg4.win 1).blk t).view.emb (ix2 k j)) = V c main_arg6 (ix2 k ((((cfg4.win 2).blk t).view.emb (ix2 r j)) 1))
    congr 1
    funext a; apply Fin.ext
    match a with
    | ⟨0, _⟩ => show win4_1.index t (0 : Fin 2) * 64 + 1 * k.val = k.val; omega
    | ⟨1, _⟩ => show win4_1.index t (1 : Fin 2) * 64 + 1 * j.val = win4_2.index t (1 : Fin 2) * 64 + 1 * j.val; omega

/-- An index of the result array is in point `t`'s block iff each coordinate is in the block's range on its axis. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v79).slice (win4_2.rect t)).set ↔ _
  rw [View.set_slice_whole, Rect.mem_set_unit]
  exact Iff.rfl

/-- Row `p` lies in the block of point `p / 5000`: the 20 blocks cover the result array. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The result array after region 4 is the product array. -/
theorem final4 : (dat4 V c).arrAt 2 cfg4.N = G4 V c :=
  (dat4 V c).arrAt_eq_of_cover 2 (G4 V c) (fun t _ => flushed4_eq V c t) (cover4)

/-- Region 4's result array, entry by entry: the matrix product of the two arrays the region finds. -/
theorem matmul4_array (p : Fin 100000) (j : Fin 64) :
    (dat4 V c).arrAt 2 cfg4.N (ix2 p j) = mm (fun p k => V c main_v78 (ix2 p k)) (fun k j => V c main_arg6 (ix2 k j)) p j :=
  congrFun (final4 V c) (ix2 p j)

end Cert.KernelIdeal.RegionValue

end
-- ==== Proof.RegionCombine.lean ====
/-
  The value of the combine-only region (region 5), as one function of its input arrays.

  The region tiles the 100000 rows of its arrays into 20 blocks of 5000 rows. At grid point t it reads rows
  5000 t … 5000 t + 4999 of the aggregated messages, of the node features and of the column of self-loop weights,
  and the whole bias row, and writes the same rows of the output. Entry (r, j) of the block it writes depends only
  on entry (r, j) of the two feature blocks, on the self-loop weight of row r and on the bias of column j, so every
  block is the restriction of one whole-array function, and since the blocks tile the array the output ends
  holding that function everywhere.
-/
import proofs.«103953_j87402584473801_1_alg».proof.Proof.Gen.KernelIdeal.Frame
import proofs.«103953_j87402584473801_1_alg».proof.Proof.Spec
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.ValueIdx Idealize.ShloMosaic.TcCoe Cert.GcnSpec

open Idealize.ShloMosaic.Pipeline (Dat)

/-- A column of shape [a, 1] broadcast along the rows to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Region 5's block at row r, column j: the aggregated entry plus the feature entry times the row's self-loop
    weight plus the bias of column j, clipped below at zero. -/
theorem combine_block (x0 x1 : Vec Ideal S5000x64 .f32) (x2 : Vec Ideal S5000x1 .f32) (x3 : Vec Ideal S1x64 .f32)
    (r : Fin 5000) (j : Fin 64) :
    k5_pay1 x0 x1 x2 x3 (ix2 r j)
      = max (x0 (ix2 r j) + x1 (ix2 r j) * x2 (ix2 r (0 : Fin 1)) + x3 (ix2 (0 : Fin 1) j))
          (Ideal.ofBits .f32 0x00000000#32) := by
  unfold k5_pay1
  simp only [shapeCast_self]
  rw [maximumf_apply, addf_apply, addf_apply, mulf_apply, broadcast_apply, broadcastTo_a1_ab_apply,
    broadcastTo_1b_ab_apply]
  rfl

variable (V : (c : Dev nD) → (b : Ref sig .tc) → Buf (Elt Ideal) ((c : Thread nD τ).loc b)) (c : Dev nD)

/-- The zero offsets of a whole-buffer access, however the zeros are spelt. -/
theorem zero_offsets : (![0, 0] : Fin 2 → Nat) = fun _ => 0 := funext fun a => by fin_cases a <;> rfl

/-- The printed index maps of region 5, decided over the grid: the four row-tiled windows sit at block (t, 0),
    the bias row at block (0, 0). -/
theorem index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The whole output array of region 5: one layer's combination of the four input arrays, index by index. -/
abbrev G5 : S100000x64.Idx → EReal := fun i =>
  comb (fun p j => V c main_v97 (ix2 p j)) (fun p j => V c main_v79 (ix2 p j)) (fun p => V c main_v32 (ix2 p 0))
    (fun j => V c main_v98 (ix2 0 j)) (i 0) (i 1)

/-- What point t writes back is block t of that array. -/
theorem flushed5 (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out5_4
  rw [View.canon_unit_zero zero_offsets]
  simp only [View.ld_unit_zero (S := S5000x64) zero_offsets, View.ld_unit_zero (S := S5000x1) zero_offsets,
    View.ld_unit_zero (S := S1x64) zero_offsets]
  obtain ⟨a0, a1, b0, b1, s0, s1, w0, w1, o0, o1⟩ := index5 t
  funext y
  obtain ⟨r, j, rfl⟩ : ∃ (r : Fin 5000) (j : Fin 64), y = ix2 r j := ⟨y 0, y 1, eq_ix2 y⟩
  show k5_pay1 (iblk5 V c 0 t) (iblk5 V c 1 t) (iblk5 V c 2 t) (iblk5 V c 3 t) (ix2 r j)
      = G5 V c (((cfg5.win 4).blk t).view.emb (ix2 r j))
  refine (combine_block _ _ _ _ r j).trans ?_
  -- each input block entry is the array's entry at the row and column the output block's entry sits at
  have h0 : iblk5 V c 0 t (ix2 r j)
      = V c main_v97 (ix2 ((((cfg5.win 4).blk t).view.emb (ix2 r j)) 0) ((((cfg5.win 4).blk t).view.emb (ix2 r j)) 1)) := by
    show V c main_v97 (((cfg5.win 0).blk t).view.emb (ix2 r j)) = _
    refine congrArg (V c main_v97) (funext fun a => Fin.ext ?_)
    match a with
    | ⟨0, _⟩ => show win5_0.index t (0 : Fin 2) * 5000 + 1 * r.val = win5_4.index t (0 : Fin 2) * 5000 + 1 * r.val; rw [a0, o0]
    | ⟨1, _⟩ => show win5_0.index t (1 : Fin 2) * 64 + 1 * j.val = win5_4.index t (1 : Fin 2) * 64 + 1 * j.val; rw [a1, o1]
  have h1 : iblk5 V c 1 t (ix2 r j)
      = V c main_v79 (ix2 ((((cfg5.win 4).blk t).view.emb (ix2 r j)) 0) ((((cfg5.win 4).blk t).view.emb (ix2 r j)) 1)) := by
    show V c main_v79 (((cfg5.win 1).blk t).view.emb (ix2 r j)) = _
    refine congrArg (V c main_v79) (funext fun a => Fin.ext ?_)
    match a with
    | ⟨0, _⟩ => show win5_1.index t (0 : Fin 2) * 5000 + 1 * r.val = win5_4.index t (0 : Fin 2) * 5000 + 1 * r.val; rw [b0, o0]
    | ⟨1, _⟩ => show win5_1.index t (1 : Fin 2) * 64 + 1 * j.val = win5_4.index t (1 : Fin 2) * 64 + 1 * j.val; rw [b1, o1]
  have h2 : iblk5 V c 2 t (ix2 r (0 : Fin 1))
      = V c main_v32 (ix2 ((((cfg5.win 4).blk t).view.emb (ix2 r j)) 0) (0 : Fin 1)) := by
    show V c main_v32 (((cfg5.win 2).blk t).view.emb (ix2 r (0 : Fin 1))) = _
    refine congrArg (V c main_v32) (funext fun a => Fin.ext ?_)
    match a with
    | ⟨0, _⟩ => show win5_2.index t (0 : Fin 2) * 5000 + 1 * r.val = win5_4.index t (0 : Fin 2) * 5000 + 1 * r.val; rw [s0, o0]
    | ⟨1, _⟩ => show win5_2.index t (1 : Fin 2) * 1 + 1 * 0 = 0; rw [s1]
  have h3 : iblk5 V c 3 t (ix2 (0 : Fin 1) j)
      = V c main_v98 (ix2 (0 : Fin 1) ((((cfg5.win 4).blk t).view.emb (ix2 r j)) 1)) := by
    show V c main_v98 (((cfg5.win 3).blk t).view.emb (ix2 (0 : Fin 1) j)) = _
    refine congrArg (V c main_v98) (funext fun a => Fin.ext ?_)
    match a with
    | ⟨0, _⟩ => show win5_3.index t (0 : Fin 2) * 1 + 1 * 0 = 0; rw [w0]
    | ⟨1, _⟩ => show win5_3.index t (1 : Fin 2) * 64 + 1 * j.val = win5_4.index t (1 : Fin 2) * 64 + 1 * j.val; rw [w1, o1]
  rw [h0, h1, h2, h3]
  rfl

/-- An index of the array is in point t's block iff each coordinate is in the block's range on its axis. -/
theorem mem_block5 (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v99).slice (win5_4.rect t)).set ↔ _
  rw [View.set_slice_whole, Rect.mem_set_unit]
  exact Iff.rfl

/-- The blocks tile the array: row r lies in the block of point r / 5000, and every point writes back. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have ht : (i 0).val / 5000 < cfg5.N := by rw [show cfg5.N = 20 from N_5]; omega
  obtain ⟨-, -, -, -, -, -, -, -, o0, o1⟩ := index5 ⟨(i 0).val / 5000, ht⟩
  refine ⟨⟨(i 0).val / 5000, ht⟩, flush5_4 _, ?_⟩
  rw [mem_block5]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win5_4.index ⟨(i 0).val / 5000, ht⟩ (1 : Fin 2) * 64 ≤ (i 1).val
      ∧ (i 1).val < win5_4.index ⟨(i 0).val / 5000, ht⟩ (1 : Fin 2) * 64 + 64
    rw [o1]
    omega

/-- The output array of region 5 after the region, entry by entry: one layer's combination of the aggregated
    messages, the features scaled by each row's self-loop weight, and the bias row, clipped below at zero. -/
theorem combine5_array (p : Fin 100000) (j : Fin 64) :
    (dat5 V c).arrAt 4 cfg5.N (ix2 p j) = comb (fun p j => V c main_v97 (ix2 p j)) (fun p j => V c main_v79 (ix2 p j)) (fun p => V c main_v32 (ix2 p 0)) (fun j => V c main_v98 (ix2 0 j)) p j :=
  congrFun ((dat5 V c).arrAt_eq_of_cover 4 (G5 V c) (fun t _ => flushed5 V c t) (cover5)) (ix2 p j)

end Cert.KernelIdeal.RegionValue

end
-- ==== Proof.RegionCombineNorm.lean ====
/-
  The value of the two combine-and-normalise regions (regions 1 and 3), each as one function of its input arrays.

  Each region tiles the 100000 rows of its arrays into 20 blocks of 5000 rows. At grid point t it reads rows
  5000 t … 5000 t + 4999 of the aggregated messages, of the node features and of the column of self-loop weights,
  and the whole bias, gain and shift rows, and writes the same rows of the output. Entry (r, j) of the block it
  writes is the row normalisation of one layer's combination: it depends on ALL 64 entries of row r of the two
  feature blocks (through the row's mean and variance, two sums along the row), on the self-loop weight of row r,
  on the whole bias row, and on the gain and shift of column j. A row lies whole inside one block, so the sums a
  block takes are the sums of the array's own row, every block is the restriction of one whole-array function, and
  since the blocks tile the array the output ends holding that function everywhere.
-/
import proofs.«103953_j87402584473801_1_alg».proof.Proof.RegionCombine
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.TcCoe Cert.GcnSpec

open Idealize.ShloMosaic.Pipeline (Dat)

/-! ## Reads at an index, and what a row's normalisation depends on -/
/-- A vector of length a cast to a column [a, 1] reads, at (p, u), the vector's entry p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the lanes of a [5000, 64] block, read at row r: the plain sum of the row's 64 entries. -/
theorem laneSum_apply (x : FVec Ideal S5000x64 .f32) (h : S5000x64.Reduces [1] S5000) (hφ : FKind.Formats .f32)
    (hacc : (0x00000000#32 : BitVec 32) = 0x00000000#32) (r : Fin 5000) :
    multiReduction .add [1] S5000 x 0x00000000#32 h hφ hacc (ix1 r) = ∑ k : Fin 64, x (ix2 r k) := by
  refine (Ideal.multiReduction_add_single x 0x00000000#32 h hφ hacc (ix1 r)).trans ?_
  show (∑ k : Fin 64, x (h.lift (ix1 r) k)) = _
  refine Finset.sum_congr rfl fun k _ => congrArg x (funext fun a => Fin.ext ?_)
  match a with
  | ⟨0, _⟩ => rfl
  | ⟨1, _⟩ => rfl

/-- The reciprocal square root of a vector, read at an index. -/
theorem rsqrt_apply {s : Shape} {φ : FTy} (a : FVec Ideal s φ) (i : s.Idx) : rsqrt a i = Ideal.rsqrt (a i) := rfl

/-- One layer's combination at an entry depends only on the four entries it reads. -/
theorem comb_row {N N' M : Nat} (a h : Fin N → Fin M → EReal) (s : Fin N → EReal) (b : Fin M → EReal)
    (a' h' : Fin N' → Fin M → EReal) (s' : Fin N' → EReal) (b' : Fin M → EReal) (p : Fin N) (p' : Fin N') (k : Fin M)
    (ha : a p k = a' p' k) (hh : h p k = h' p' k) (hs : s p = s' p') (hb : b k = b' k) :
    comb a h s b p k = comb a' h' s' b' p' k := by
  unfold comb
  rw [ha, hh, hs, hb]

/-- The row normalisation at an entry depends only on the entry's row (through the row's mean and variance) and on
    the gain and shift of its column. -/
theorem rowNorm_row {N N' : Nat} (v : Fin N → Fin 64 → EReal) (v' : Fin N' → Fin 64 → EReal) (g d g' d' : Fin 64 → EReal)
    (p : Fin N) (p' : Fin N') (j j' : Fin 64) (hj : j = j') (hv : ∀ k, v p k = v' p' k) (hg : g j = g' j)
    (hd : d j = d' j) : rowNorm v g d p j = rowNorm v' g' d' p' j' := by
  subst hj
  have hm : rowMean v p = rowMean v' p' := by unfold rowMean; simp only [hv]
  have hvar : rowVar v p = rowVar v' p' := by unfold rowVar; rw [hm]; simp only [hv]
  unfold rowNorm
  rw [hm, hvar, hv j, hg, hd]

/-! ## The blocks' entries -/

/-- Region 1's block at row r, column j: the row normalisation of one layer's combination, with the gain
    and shift of column j; the row's mean and variance are sums over the 64 entries of row r of the block. -/
theorem combineNorm_block1 (x0 x1 : Vec Ideal S5000x64 .f32) (x2 : Vec Ideal S5000x1 .f32) (x3 x4 x5 : Vec Ideal S1x64 .f32)
    (r : Fin 5000) (j : Fin 64) :
    k1_pay1 x0 x1 x2 x3 x4 x5 (ix2 r j)
      = rowNorm (comb (fun r j => x0 (ix2 r j)) (fun r j => x1 (ix2 r j)) (fun r => x2 (ix2 r (0 : Fin 1)))
          (fun j => x3 (ix2 (0 : Fin 1) j))) (fun j => x4 (ix2 (0 : Fin 1) j)) (fun j => x5 (ix2 (0 : Fin 1) j)) r j := by
  unfold k1_pay1
  simp only [shapeCast_self, addf_apply, mulf_apply, subf_apply, divf_apply, maximumf_apply, broadcast_apply,
    rsqrt_apply, broadcastTo_a1_ab_apply, broadcastTo_1b_ab_apply, shapeCast_a_a1_apply]
  repeat (rw [laneSum_apply]; try simp only [shapeCast_self, addf_apply, mulf_apply, subf_apply, divf_apply,
    maximumf_apply, broadcast_apply, rsqrt_apply, broadcastTo_a1_ab_apply, broadcastTo_1b_ab_apply, shapeCast_a_a1_apply])
  rfl

/-- Region 3's block at row r, column j: the row normalisation of one layer's combination, with the gain
    and shift of column j; the row's mean and variance are sums over the 64 entries of row r of the block. -/
theorem combineNorm_block3 (x0 x1 : Vec Ideal S5000x64 .f32) (x2 : Vec Ideal S5000x1 .f32) (x3 x4 x5 : Vec Ideal S1x64 .f32)
    (r : Fin 5000) (j : Fin 64) :
    k3_pay1 x0 x1 x2 x3 x4 x5 (ix2 r j)
      = rowNorm (comb (fun r j => x0 (ix2 r j)) (fun r j => x1 (ix2 r j)) (fun r => x2 (ix2 r (0 : Fin 1)))
          (fun j => x3 (ix2 (0 : Fin 1) j))) (fun j => x4 (ix2 (0 : Fin 1) j)) (fun j => x5 (ix2 (0 : Fin 1) j)) r j := by
  unfold k3_pay1
  simp only [shapeCast_self, addf_apply, mulf_apply, subf_apply, divf_apply, maximumf_apply, broadcast_apply,
    rsqrt_apply, broadcastTo_a1_ab_apply, broadcastTo_1b_ab_apply, shapeCast_a_a1_apply]
  repeat (rw [laneSum_apply]; try simp only [shapeCast_self, addf_apply, mulf_apply, subf_apply, divf_apply,
    maximumf_apply, broadcast_apply, rsqrt_apply, broadcastTo_a1_ab_apply, broadcastTo_1b_ab_apply, shapeCast_a_a1_apply])
  rfl

variable (V : (c : Dev nD) → (b : Ref sig .tc) → Buf (Elt Ideal) ((c : Thread nD τ).loc b)) (c : Dev nD)

/-! ## Region 1 -/

/-- The printed index maps of region 1, decided over the grid: the four row-tiled windows sit at block (t, 0),
    the bias, gain and shift rows at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the aggregated-messages block at point t is row 5000 t + r of the array. -/
theorem read1_0 (t : Fin cfg1.N) (r : Fin 5000) (k : Fin 64) (p : Fin 100000) (hp : p.val = t.val * 5000 + r.val) :
    iblk1 V c 0 t (ix2 r k) = V c main_v51 (ix2 p k) := by
  obtain ⟨e0, e1, -⟩ := index1 t
  show V c main_v51 (((cfg1.win 0).blk t).view.emb (ix2 r k)) = _
  refine congrArg (V c main_v51) (funext fun a => Fin.ext ?_)
  match a with
  | ⟨0, _⟩ => show win1_0.index t (0 : Fin 2) * 5000 + 1 * r.val = p.val; rw [e0, hp]; omega
  | ⟨1, _⟩ => show win1_0.index t (1 : Fin 2) * 64 + 1 * k.val = k.val; rw [e1]; omega

/-- Row r of the feature block at point t is row 5000 t + r of the array. -/
theorem read1_1 (t : Fin cfg1.N) (r : Fin 5000) (k : Fin 64) (p : Fin 100000) (hp : p.val = t.val * 5000 + r.val) :
    iblk1 V c 1 t (ix2 r k) = V c main_v33 (ix2 p k) := by
  obtain ⟨-, -, e0, e1, -⟩ := index1 t
  show V c main_v33 (((cfg1.win 1).blk t).view.emb (ix2 r k)) = _
  refine congrArg (V c main_v33) (funext fun a => Fin.ext ?_)
  match a with
  | ⟨0, _⟩ => show win1_1.index t (0 : Fin 2) * 5000 + 1 * r.val = p.val; rw [e0, hp]; omega
  | ⟨1, _⟩ => show win1_1.index t (1 : Fin 2) * 64 + 1 * k.val = k.val; rw [e1]; omega

/-- Entry r of the self-loop column's block at point t is entry 5000 t + r of the column. -/
theorem read1_2 (t : Fin cfg1.N) (r : Fin 5000) (p : Fin 100000) (hp : p.val = t.val * 5000 + r.val) :
    iblk1 V c 2 t (ix2 r (0 : Fin 1)) = V c main_v32 (ix2 p (0 : Fin 1)) := by
  obtain ⟨-, -, -, -, e0, e1, -⟩ := index1 t
  show V c main_v32 (((cfg1.win 2).blk t).view.emb (ix2 r (0 : Fin 1))) = _
  refine congrArg (V c main_v32) (funext fun a => Fin.ext ?_)
  match a with
  | ⟨0, _⟩ => show win1_2.index t (0 : Fin 2) * 5000 + 1 * r.val = p.val; rw [e0, hp]; omega
  | ⟨1, _⟩ => show win1_2.index t (1 : Fin 2) * 1 + 1 * 0 = 0; rw [e1]

/-- The bias row's block is the whole row at every point. -/
theorem read1_3 (t : Fin cfg1.N) (k : Fin 64) :
    iblk1 V c 3 t (ix2 (0 : Fin 1) k) = V c main_v52 (ix2 (0 : Fin 1) k) := by
  obtain ⟨-, -, -, -, -, -, e0, e1, -⟩ := index1 t
  show V c main_v52 (((cfg1.win 3).blk t).view.emb (ix2 (0 : Fin 1) k)) = _
  refine congrArg (V c main_v52) (funext fun a => Fin.ext ?_)
  match a with
  | ⟨0, _⟩ => show win1_3.index t (0 : Fin 2) * 1 + 1 * 0 = 0; rw [e0]
  | ⟨1, _⟩ => show win1_3.index t (1 : Fin 2) * 64 + 1 * k.val = k.val; rw [e1]; omega

/-- The gain row's block is the whole row at every point. -/
theorem read1_4 (t : Fin cfg1.N) (k : Fin 64) :
    iblk1 V c 4 t (ix2 (0 : Fin 1) k) = V c main_v53 (ix2 (0 : Fin 1) k) := by
  obtain ⟨-, -, -, -, -, -, -, -, e0, e1, -⟩ := index1 t
  show V c main_v53 (((cfg1.win 4).blk t).view.emb (ix2 (0 : Fin 1) k)) = _
  refine congrArg (V c main_v53) (funext fun a => Fin.ext ?_)
  match a with
  | ⟨0, _⟩ => show win1_4.index t (0 : Fin 2) * 1 + 1 * 0 = 0; rw [e0]
  | ⟨1, _⟩ => show win1_4.index t (1 : Fin 2) * 64 + 1 * k.val = k.val; rw [e1]; omega

/-- The shift row's block is the whole row at every point. -/
theorem read1_5 (t : Fin cfg1.N) (k : Fin 64) :
    iblk1 V c 5 t (ix2 (0 : Fin 1) k) = V c main_v54 (ix2 (0 : Fin 1) k) := by
  obtain ⟨-, -, -, -, -, -, -, -, -, -, e0, e1, -⟩ := index1 t
  show V c main_v54 (((cfg1.win 5).blk t).view.emb (ix2 (0 : Fin 1) k)) = _
  refine congrArg (V c main_v54) (funext fun a => Fin.ext ?_)
  match a with
  | ⟨0, _⟩ => show win1_5.index t (0 : Fin 2) * 1 + 1 * 0 = 0; rw [e0]
  | ⟨1, _⟩ => show win1_5.index t (1 : Fin 2) * 64 + 1 * k.val = k.val; rw [e1]; omega

/-- The whole output array of region 1: the row normalisation of one layer's combination of the input arrays. -/
abbrev G1 : S100000x64.Idx → EReal := fun i =>
  rowNorm (comb (fun p j => V c main_v51 (ix2 p j)) (fun p j => V c main_v33 (ix2 p j)) (fun p => V c main_v32 (ix2 p 0))
      (fun j => V c main_v52 (ix2 0 j))) (fun j => V c main_v53 (ix2 0 j)) (fun j => V c main_v54 (ix2 0 j)) (i 0) (i 1)

/-- What point t writes back is block t of that array: a row's mean and variance are taken over the row itself,
    which lies whole inside the block. -/
theorem flushed1 (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S5000x1) zero_offsets,
    View.ld_unit_zero (S := S1x64) zero_offsets]
  funext y
  obtain ⟨r, j, rfl⟩ : ∃ (r : Fin 5000) (j : Fin 64), y = ix2 r j := ⟨y 0, y 1, eq_ix2 y⟩
  show k1_pay1 (iblk1 V c 0 t) (iblk1 V c 1 t) (iblk1 V c 2 t) (iblk1 V c 3 t) (iblk1 V c 4 t)
      (iblk1 V c 5 t) (ix2 r j) = G1 V c (((cfg1.win 6).blk t).view.emb (ix2 r j))
  refine (combineNorm_block1 _ _ _ _ _ _ r j).trans ?_
  obtain ⟨-, -, -, -, -, -, -, -, -, -, -, -, o0, o1⟩ := index1 t
  have hp : ((((cfg1.win 6).blk t).view.emb (ix2 r j)) 0).val = t.val * 5000 + r.val := by
    show win1_6.index t (0 : Fin 2) * 5000 + 1 * r.val = _
    rw [o0]; omega
  have hq : j = (((cfg1.win 6).blk t).view.emb (ix2 r j)) 1 := Fin.ext (by
    show j.val = win1_6.index t (1 : Fin 2) * 64 + 1 * j.val
    rw [o1]; omega)
  show rowNorm _ _ _ r j = rowNorm _ _ _ ((((cfg1.win 6).blk t).view.emb (ix2 r j)) 0)
      ((((cfg1.win 6).blk t).view.emb (ix2 r j)) 1)
  exact rowNorm_row _ _ _ _ _ _ r _ j _ hq
    (fun k => comb_row _ _ _ _ _ _ _ _ r _ k (read1_0 V c t r k _ hp) (read1_1 V c t r k _ hp)
      (read1_2 V c t r _ hp) (read1_3 V c t k))
    (read1_4 V c t j) (read1_5 V c t j)

/-- An index of the array is in point t's block iff each coordinate is in the block's range on its axis. -/
theorem mem_block1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v55).slice (win1_6.rect t)).set ↔ _
  rw [View.set_slice_whole, Rect.mem_set_unit]
  exact Iff.rfl

/-- The blocks tile the array: row r lies in the block of point r / 5000, and every point writes back. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have ht : (i 0).val / 5000 < cfg1.N := by rw [show cfg1.N = 20 from N_1]; omega
  obtain ⟨-, -, -, -, -, -, -, -, -, -, -, -, o0, o1⟩ := index1 ⟨(i 0).val / 5000, ht⟩
  refine ⟨⟨(i 0).val / 5000, ht⟩, flush1_6 _, ?_⟩
  rw [mem_block1]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    rw [o1]
    omega

/-- The output array of region 1 after the region, entry by entry: the row normalisation, with the gain and shift
    rows, of one layer's combination of the aggregated messages, the features scaled by each row's self-loop weight,
    and the bias row. -/
theorem combineNorm1_array (p : Fin 100000) (j : Fin 64) :
    (dat1 V c).arrAt 6 cfg1.N (ix2 p j) = rowNorm (comb (fun p j => V c main_v51 (ix2 p j)) (fun p j => V c main_v33 (ix2 p j)) (fun p => V c main_v32 (ix2 p 0)) (fun j => V c main_v52 (ix2 0 j))) (fun j => V c main_v53 (ix2 0 j)) (fun j => V c main_v54 (ix2 0 j)) p j :=
  congrFun ((dat1 V c).arrAt_eq_of_cover 6 (G1 V c) (fun t _ => flushed1 V c t) (cover1)) (ix2 p j)

/-! ## Region 3 -/

/-- The printed index maps of region 3, decided over the grid: the four row-tiled windows sit at block (t, 0),
    the bias, gain and shift rows at block (0, 0). -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row r of the aggregated-messages block at point t is row 5000 t + r of the array. -/
theorem read3_0 (t : Fin cfg3.N) (r : Fin 5000) (k : Fin 64) (p : Fin 100000) (hp : p.val = t.val * 5000 + r.val) :
    iblk3 V c 0 t (ix2 r k) = V c main_v74 (ix2 p k) := by
  obtain ⟨e0, e1, -⟩ := index3 t
  show V c main_v74 (((cfg3.win 0).blk t).view.emb (ix2 r k)) = _
  refine congrArg (V c main_v74) (funext fun a => Fin.ext ?_)
  match a with
  | ⟨0, _⟩ => show win3_0.index t (0 : Fin 2) * 5000 + 1 * r.val = p.val; rw [e0, hp]; omega
  | ⟨1, _⟩ => show win3_0.index t (1 : Fin 2) * 64 + 1 * k.val = k.val; rw [e1]; omega

/-- Row r of the feature block at point t is row 5000 t + r of the array. -/
theorem read3_1 (t : Fin cfg3.N) (r : Fin 5000) (k : Fin 64) (p : Fin 100000) (hp : p.val = t.val * 5000 + r.val) :
    iblk3 V c 1 t (ix2 r k) = V c main_v56 (ix2 p k) := by
  obtain ⟨-, -, e0, e1, -⟩ := index3 t
  show V c main_v56 (((cfg3.win 1).blk t).view.emb (ix2 r k)) = _
  refine congrArg (V c main_v56) (funext fun a => Fin.ext ?_)
  match a with
  | ⟨0, _⟩ => show win3_1.index t (0 : Fin 2) * 5000 + 1 * r.val = p.val; rw [e0, hp]; omega
  | ⟨1, _⟩ => show win3_1.index t (1 : Fin 2) * 64 + 1 * k.val = k.val; rw [e1]; omega

/-- Entry r of the self-loop column's block at point t is entry 5000 t + r of the column. -/
theorem read3_2 (t : Fin cfg3.N) (r : Fin 5000) (p : Fin 100000) (hp : p.val = t.val * 5000 + r.val) :
    iblk3 V c 2 t (ix2 r (0 : Fin 1)) = V c main_v32 (ix2 p (0 : Fin 1)) := by
  obtain ⟨-, -, -, -, e0, e1, -⟩ := index3 t
  show V c main_v32 (((cfg3.win 2).blk t).view.emb (ix2 r (0 : Fin 1))) = _
  refine congrArg (V c main_v32) (funext fun a => Fin.ext ?_)
  match a with
  | ⟨0, _⟩ => show win3_2.index t (0 : Fin 2) * 5000 + 1 * r.val = p.val; rw [e0, hp]; omega
  | ⟨1, _⟩ => show win3_2.index t (1 : Fin 2) * 1 + 1 * 0 = 0; rw [e1]

/-- The bias row's block is the whole row at every point. -/
theorem read3_3 (t : Fin cfg3.N) (k : Fin 64) :
    iblk3 V c 3 t (ix2 (0 : Fin 1) k) = V c main_v75 (ix2 (0 : Fin 1) k) := by
  obtain ⟨-, -, -, -, -, -, e0, e1, -⟩ := index3 t
  show V c main_v75 (((cfg3.win 3).blk t).view.emb (ix2 (0 : Fin 1) k)) = _
  refine congrArg (V c main_v75) (funext fun a => Fin.ext ?_)
  match a with
  | ⟨0, _⟩ => show win3_3.index t (0 : Fin 2) * 1 + 1 * 0 = 0; rw [e0]
  | ⟨1, _⟩ => show win3_3.index t (1 : Fin 2) * 64 + 1 * k.val = k.val; rw [e1]; omega

/-- The gain row's block is the whole row at every point. -/
theorem read3_4 (t : Fin cfg3.N) (k : Fin 64) :
    iblk3 V c 4 t (ix2 (0 : Fin 1) k) = V c main_v76 (ix2 (0 : Fin 1) k) := by
  obtain ⟨-, -, -, -, -, -, -, -, e0, e1, -⟩ := index3 t
  show V c main_v76 (((cfg3.win 4).blk t).view.emb (ix2 (0 : Fin 1) k)) = _
  refine congrArg (V c main_v76) (funext fun a => Fin.ext ?_)
  match a with
  | ⟨0, _⟩ => show win3_4.index t (0 : Fin 2) * 1 + 1 * 0 = 0; rw [e0]
  | ⟨1, _⟩ => show win3_4.index t (1 : Fin 2) * 64 + 1 * k.val = k.val; rw [e1]; omega

/-- The shift row's block is the whole row at every point. -/
theorem read3_5 (t : Fin cfg3.N) (k : Fin 64) :
    iblk3 V c 5 t (ix2 (0 : Fin 1) k) = V c main_v77 (ix2 (0 : Fin 1) k) := by
  obtain ⟨-, -, -, -, -, -, -, -, -, -, e0, e1, -⟩ := index3 t
  show V c main_v77 (((cfg3.win 5).blk t).view.emb (ix2 (0 : Fin 1) k)) = _
  refine congrArg (V c main_v77) (funext fun a => Fin.ext ?_)
  match a with
  | ⟨0, _⟩ => show win3_5.index t (0 : Fin 2) * 1 + 1 * 0 = 0; rw [e0]
  | ⟨1, _⟩ => show win3_5.index t (1 : Fin 2) * 64 + 1 * k.val = k.val; rw [e1]; omega

/-- The whole output array of region 3: the row normalisation of one layer's combination of the input arrays. -/
abbrev G3 : S100000x64.Idx → EReal := fun i =>
  rowNorm (comb (fun p j => V c main_v74 (ix2 p j)) (fun p j => V c main_v56 (ix2 p j)) (fun p => V c main_v32 (ix2 p 0))
      (fun j => V c main_v75 (ix2 0 j))) (fun j => V c main_v76 (ix2 0 j)) (fun j => V c main_v77 (ix2 0 j)) (i 0) (i 1)

/-- What point t writes back is block t of that array: a row's mean and variance are taken over the row itself,
    which lies whole inside the block. -/
theorem flushed3 (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S5000x1) zero_offsets,
    View.ld_unit_zero (S := S1x64) zero_offsets]
  funext y
  obtain ⟨r, j, rfl⟩ : ∃ (r : Fin 5000) (j : Fin 64), y = ix2 r j := ⟨y 0, y 1, eq_ix2 y⟩
  show k3_pay1 (iblk3 V c 0 t) (iblk3 V c 1 t) (iblk3 V c 2 t) (iblk3 V c 3 t) (iblk3 V c 4 t)
      (iblk3 V c 5 t) (ix2 r j) = G3 V c (((cfg3.win 6).blk t).view.emb (ix2 r j))
  refine (combineNorm_block3 _ _ _ _ _ _ r j).trans ?_
  obtain ⟨-, -, -, -, -, -, -, -, -, -, -, -, o0, o1⟩ := index3 t
  have hp : ((((cfg3.win 6).blk t).view.emb (ix2 r j)) 0).val = t.val * 5000 + r.val := by
    show win3_6.index t (0 : Fin 2) * 5000 + 1 * r.val = _
    rw [o0]; omega
  have hq : j = (((cfg3.win 6).blk t).view.emb (ix2 r j)) 1 := Fin.ext (by
    show j.val = win3_6.index t (1 : Fin 2) * 64 + 1 * j.val
    rw [o1]; omega)
  show rowNorm _ _ _ r j = rowNorm _ _ _ ((((cfg3.win 6).blk t).view.emb (ix2 r j)) 0)
      ((((cfg3.win 6).blk t).view.emb (ix2 r j)) 1)
  exact rowNorm_row _ _ _ _ _ _ r _ j _ hq
    (fun k => comb_row _ _ _ _ _ _ _ _ r _ k (read3_0 V c t r k _ hp) (read3_1 V c t r k _ hp)
      (read3_2 V c t r _ hp) (read3_3 V c t k))
    (read3_4 V c t j) (read3_5 V c t j)

/-- An index of the array is in point t's block iff each coordinate is in the block's range on its axis. -/
theorem mem_block3 (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v78).slice (win3_6.rect t)).set ↔ _
  rw [View.set_slice_whole, Rect.mem_set_unit]
  exact Iff.rfl

/-- The blocks tile the array: row r lies in the block of point r / 5000, and every point writes back. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have ht : (i 0).val / 5000 < cfg3.N := by rw [show cfg3.N = 20 from N_3]; omega
  obtain ⟨-, -, -, -, -, -, -, -, -, -, -, -, o0, o1⟩ := index3 ⟨(i 0).val / 5000, ht⟩
  refine ⟨⟨(i 0).val / 5000, ht⟩, flush3_6 _, ?_⟩
  rw [mem_block3]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win3_6.index ⟨(i 0).val / 5000, ht⟩ (1 : Fin 2) * 64 ≤ (i 1).val
      ∧ (i 1).val < win3_6.index ⟨(i 0).val / 5000, ht⟩ (1 : Fin 2) * 64 + 64
    rw [o1]
    omega

/-- The output array of region 3 after the region, entry by entry: the row normalisation, with the gain and shift
    rows, of one layer's combination of the aggregated messages, the features scaled by each row's self-loop weight,
    and the bias row. -/
theorem combineNorm3_array (p : Fin 100000) (j : Fin 64) :
    (dat3 V c).arrAt 6 cfg3.N (ix2 p j) = rowNorm (comb (fun p j => V c main_v74 (ix2 p j)) (fun p j => V c main_v56 (ix2 p j)) (fun p => V c main_v32 (ix2 p 0)) (fun j => V c main_v75 (ix2 0 j))) (fun j => V c main_v76 (ix2 0 j)) (fun j => V c main_v77 (ix2 0 j)) p j :=
  congrFun ((dat3 V c).arrAt_eq_of_cover 6 (G3 V c) (fun t _ => flushed3 V c t) (cover3)) (ix2 p j)

end Cert.KernelIdeal.RegionValue

end
-- ==== Proof.RegionAffine.lean ====
/-
  The closing region: two affine layers applied to every row.

  The region tiles the 100000 rows of the feature table and of the result into 20 blocks of 5000 rows, and stages
  the two weight matrices (64×64 and 64×40) and the two bias rows (1×64 and 1×40) whole at every grid point.  At row
  `r` and column `l` of the result block the body stores

      ∑ j, (∑ k, x r k · W₀ k j + b₀ j) · W₁ j l + b₁ l,

  a function of row `r` of the feature block alone.  Row `p` of the result array lies in the block of point
  `p / 5000`, so the result array is that two-layer affine map of the arrays the region finds, entry by entry.
-/
import proofs.«103953_j87402584473801_1_alg».proof.Proof.Spec
import proofs.«103953_j87402584473801_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Cert.GcnSpec
open Idealize.ShloMosaic.Pipeline (Dat)
open Idealize.ShloMosaic.TcCoe

variable (V : (c : Dev nD) → (b : Ref sig .tc) → Buf (Elt Ideal) ((c : Thread nD τ).loc b)) (c : Dev nD)

/-- The zero offsets of a whole-buffer rectangle, as the constant function. -/
theorem zeroOff6 : (![0, 0] : Fin 2 → Nat) = fun _ => 0 := funext fun a => by fin_cases a <;> rfl

/-! ## The first layer's product: a 5000×64 block times the 64×64 weight -/

theorem lhsP_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsP_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhsP_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhsP_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000×64 block and the 64×64 weight at row `r`, column `j`: the sum over the 64 shared coordinates. -/
theorem dotP_apply (l : FVec Ideal S5000x64 .bf16) (w : FVec Ideal S64x64 .bf16) (r : Fin 5000) (j : Fin 64) :
    matmul dot_S5000x64_S64x64_S5000x64_1_0_0_1_n_n none l w (constant S5000x64 .f32 0x00000000#32) (ix2 r j) = ∑ k : Fin 64, l (ix2 r k) * w (ix2 k j) := by
  refine (Ideal.matmul_constant_zero_apply dot_S5000x64_S64x64_S5000x64_1_0_0_1_n_n none l w (ix2 r j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhsP_0 _ _
    | ⟨1, _⟩ => exact (lhsP_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhsP_0 _ _).trans hk
    | ⟨1, _⟩ => exact rhsP_1 _ _)
  rw [el, er]

/-! ## The second layer's product: a 5000×64 block times the 64×40 weight -/

theorem lhsQ_0 (i : S5000x40.Idx) (q : dot_S5000x64_S64x40_S5000x40_1_0_0_1_n_n.contr.Idx) : (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhsQ_1 (i : S5000x40.Idx) (q : dot_S5000x64_S64x40_S5000x40_1_0_0_1_n_n.contr.Idx) : (dot_S5000x64_S64x40_S5000x40_1_0_0_1_n_n.lhsIdx i q 1).val = (q ⟨0, by decide⟩).val :=
  dot_S5000x64_S64x40_S5000x40_1_0_0_1_n_n.lhsIdx_val_of_single rfl i q
theorem rhsQ_0 (i : S5000x40.Idx) (q : dot_S5000x64_S64x40_S5000x40_1_0_0_1_n_n.contr.Idx) : (dot_S5000x64_S64x40_S5000x40_1_0_0_1_n_n.rhsIdx i q 0).val = (q ⟨0, by decide⟩).val :=
  dot_S5000x64_S64x40_S5000x40_1_0_0_1_n_n.rhsIdx_val_of_single rfl i q
theorem rhsQ_1 (i : S5000x40.Idx) (q : dot_S5000x64_S64x40_S5000x40_1_0_0_1_n_n.contr.Idx) : (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The product of a 5000×64 block and the 64×40 weight at row `r`, column `j`: the sum over the 64 shared coordinates. -/
theorem dotQ_apply (l : FVec Ideal S5000x64 .bf16) (w : FVec Ideal S64x40 .bf16) (r : Fin 5000) (j : Fin 40) :
    matmul dot_S5000x64_S64x40_S5000x40_1_0_0_1_n_n none l w (constant S5000x40 .f32 0x00000000#32) (ix2 r j) = ∑ k : Fin 64, l (ix2 r k) * w (ix2 k j) := by
  refine (Ideal.matmul_constant_zero_apply dot_S5000x64_S64x40_S5000x40_1_0_0_1_n_n none l w (ix2 r j)).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 r j) ((contrEquiv1 dot_S5000x64_S64x40_S5000x40_1_0_0_1_n_n 64 rfl rfl).symm k) = ix2 r k := funext fun a => Fin.ext (by
    match a with
    | ⟨0, _⟩ => exact lhsQ_0 _ _
    | ⟨1, _⟩ => exact (lhsQ_1 _ _).trans hk)
  have er : dot_S5000x64_S64x40_S5000x40_1_0_0_1_n_n.rhsIdx (ix2 r j) ((contrEquiv1 dot_S5000x64_S64x40_S5000x40_1_0_0_1_n_n 64 rfl rfl).symm k) = ix2 k j := funext fun a => Fin.ext (by
    match a with
    | ⟨0, _⟩ => exact (rhsQ_0 _ _).trans hk
    | ⟨1, _⟩ => exact rhsQ_1 _ _)
  rw [el, er]

/-! ## The body's result block at an index -/

/-- Row `r`, column `l` of the body's result: the second product of the first layer's row plus the second bias (the
    shape casts to the same shape and the changes of float format are identities; a bias row broadcast over the
    5000 rows is read at its one row). -/
theorem pay6_apply (x0 : Vec Ideal S5000x64 .f32) (x1 : Vec Ideal S64x64 .f32) (x2 : Vec Ideal S1x64 .f32)
    (x3 : Vec Ideal S64x40 .f32) (x4 : Vec Ideal S1x40 .f32) (r : Fin 5000) (l : Fin 40) :
    k6_pay1 (F := Ideal) x0 x1 x2 x3 x4 (ix2 r l)
      = (∑ j : Fin 64, ((∑ k : Fin 64, x0 (ix2 r k) * x1 (ix2 k j)) + x2 (ix2 (0 : Fin 1) j)) * x3 (ix2 j l))
        + x4 (ix2 (0 : Fin 1) l) := by
  unfold k6_pay1
  simp only [shapeCast_self]
  refine congrArg₂ (· + ·) ?_ (broadcastTo_1b_ab_apply x4 broadcasts_S1x40_S5000x40 r l)
  refine (dotQ_apply _ _ r l).trans ?_
  refine Finset.sum_congr rfl fun j _ => congrArg₂ (· * ·) ?_ rfl
  exact congrArg₂ (· + ·) (dotP_apply _ _ r j) (broadcastTo_1b_ab_apply x2 broadcasts_S1x64_S5000x64 r j)

/-! ## From the blocks to the result array -/

/-- The result array of the region: the two-layer affine map of the arrays the region finds, entry by entry. -/
abbrev G6 : S100000x40.Idx → EReal := fun i =>
  affine2 (N := 100000) (K := 64) (M := 64) (L := 40) (fun p k => V c main_v99 (ix2 p k)) (fun k j => V c main_arg12 (ix2 k j))
    (fun j => V c main_v100 (ix2 (0 : Fin 1) j)) (fun j l => V c main_arg14 (ix2 j l)) (fun l => V c main_v101 (ix2 (0 : Fin 1) l)) (i 0) (i 1)

/-- The body's result block, from the five staged blocks, at row `r` and column `l` of the block. -/
theorem block6_apply (x0 : Vec Ideal S5000x64 .f32) (x1 : Vec Ideal S64x64 .f32) (x2 : Vec Ideal S1x64 .f32)
    (x3 : Vec Ideal S64x40 .f32) (x4 : Vec Ideal S1x40 .f32) (r : Fin 5000) (l : Fin 40) :
    out6_5 x0 x1 x2 x3 x4 (ix2 r l)
      = (∑ j : Fin 64, ((∑ k : Fin 64, x0 (ix2 r k) * x1 (ix2 k j)) + x2 (ix2 (0 : Fin 1) j)) * x3 (ix2 j l))
        + x4 (ix2 (0 : Fin 1) l) := by
  unfold out6_5
  rw [View.canon_unit_zero zeroOff6]
  simp only [View.ld_unit_zero (S := S5000x64) zeroOff6, View.ld_unit_zero (S := S64x64) zeroOff6,
    View.ld_unit_zero (S := S1x64) zeroOff6, View.ld_unit_zero (S := S64x40) zeroOff6, View.ld_unit_zero (S := S1x40) zeroOff6]
  exact pay6_apply x0 x1 x2 x3 x4 r l

/-- The printed index maps over the grid: the feature table's and the result's blocks move down the rows with the
    point, the weights' and the bias rows' blocks stay at the origin. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Every one of the 20 row blocks is some point's. -/
theorem idx_onto6 : ∀ q : Fin 20, ∃ t : Fin cfg6.N, win6_5.index t = ![q.val, 0] :=
  (by decide +kernel : ∀ q : Fin 20, ∃ t : Fin grid6.N, win6_5.index t = ![q.val, 0])

/-- What point `t` writes back is block `t` of the result array: row `r` of the block is row `5000 t + r` of the
    feature table, and the weights and bias rows are read at the same index in every block. -/
theorem flushed6_eq (t : Fin cfg6.N) :
    (dat6 V c).flushed 5 t = ((cfg6.win 5).blk t).view.read (Elt Ideal) (G6 V c) := by
  show (cfg6.win 5).cut (grid6.coords t) ((dat6 V c).after 5 t) = _
  rw [after6_5]
  obtain ⟨a0, a1, b0, b1, c0, c1, d0, d1, e0, e1, f0, f1⟩ := idx_facts6 t
  funext y
  obtain ⟨r, l, rfl⟩ : ∃ (r : Fin 5000) (l : Fin 40), y = ix2 r l := ⟨y 0, y 1, eq_ix2 y⟩
  refine (block6_apply (iblk6 V c 0 t) (iblk6 V c 1 t) (iblk6 V c 2 t) (iblk6 V c 3 t) (iblk6 V c 4 t) r l).trans ?_
  show _ = affine2 (N := 100000) (K := 64) (M := 64) (L := 40) (fun p k => V c main_v99 (ix2 p k)) (fun k j => V c main_arg12 (ix2 k j))
    (fun j => V c main_v100 (ix2 (0 : Fin 1) j)) (fun j l => V c main_arg14 (ix2 j l)) (fun l => V c main_v101 (ix2 (0 : Fin 1) l))
    ((((cfg6.win 5).blk t).view.emb (ix2 r l)) 0) ((((cfg6.win 5).blk t).view.emb (ix2 r l)) 1)
  unfold affine2 mm
  refine congrArg₂ (· + ·) (Finset.sum_congr rfl fun j _ => congrArg₂ (· * ·) (congrArg₂ (· + ·)
    (Finset.sum_congr rfl fun k _ => congrArg₂ (· * ·) ?h0 ?h1) ?h2) ?h3) ?h4
  case h0 =>
    show V c main_v99 (((cfg6.win 0).blk t).view.emb (ix2 r k)) = V c main_v99 (ix2 ((((cfg6.win 5).blk t).view.emb (ix2 r l)) 0) k)
    congr 1
    funext a; apply Fin.ext
    match a with
    | ⟨0, _⟩ => show win6_0.index t (0 : Fin 2) * 5000 + 1 * r.val = win6_5.index t (0 : Fin 2) * 5000 + 1 * r.val; omega
    | ⟨1, _⟩ => show win6_0.index t (1 : Fin 2) * 64 + 1 * k.val = k.val; omega
  case h1 =>
    show V c main_arg12 (((cfg6.win 1).blk t).view.emb (ix2 k j)) = V c main_arg12 (ix2 k j)
    congr 1
    funext a; apply Fin.ext
    match a with
    | ⟨0, _⟩ => show win6_1.index t (0 : Fin 2) * 64 + 1 * k.val = k.val; omega
    | ⟨1, _⟩ => show win6_1.index t (1 : Fin 2) * 64 + 1 * j.val = j.val; omega
  case h2 =>
    show V c main_v100 (((cfg6.win 2).blk t).view.emb (ix2 (0 : Fin 1) j)) = V c main_v100 (ix2 (0 : Fin 1) j)
    congr 1
    funext a; apply Fin.ext
    match a with
    | ⟨0, _⟩ => show win6_2.index t (0 : Fin 2) * 1 + 1 * 0 = 0; omega
    | ⟨1, _⟩ => show win6_2.index t (1 : Fin 2) * 64 + 1 * j.val = j.val; omega
  case h3 =>
    show V c main_arg14 (((cfg6.win 3).blk t).view.emb (ix2 j l)) = V c main_arg14 (ix2 j ((((cfg6.win 5).blk t).view.emb (ix2 r l)) 1))
    congr 1
    funext a; apply Fin.ext
    match a with
    | ⟨0, _⟩ => show win6_3.index t (0 : Fin 2) * 64 + 1 * j.val = j.val; omega
    | ⟨1, _⟩ => show win6_3.index t (1 : Fin 2) * 40 + 1 * l.val = win6_5.index t (1 : Fin 2) * 40 + 1 * l.val; omega
  case h4 =>
    show V c main_v101 (((cfg6.win 4).blk t).view.emb (ix2 (0 : Fin 1) l)) = V c main_v101 (ix2 (0 : Fin 1) ((((cfg6.win 5).blk t).view.emb (ix2 r l)) 1))
    congr 1
    funext a; apply Fin.ext
    match a with
    | ⟨0, _⟩ => show win6_4.index t (0 : Fin 2) * 1 + 1 * 0 = 0; omega
    | ⟨1, _⟩ => show win6_4.index t (1 : Fin 2) * 40 + 1 * l.val = win6_5.index t (1 : Fin 2) * 40 + 1 * l.val; omega

/-- An index of the result array is in point `t`'s block iff each coordinate is in the block's range on its axis. -/
theorem mem_blk6 (t : Fin cfg6.N) (i : S100000x40.Idx) :
    i ∈ ((cfg6.win 5).blk t).view.set ↔ ∀ a : Fin 2, win6_5.index t a * S5000x40.size a ≤ (i a).val ∧ (i a).val < win6_5.index t a * S5000x40.size a + S5000x40.size a := by
  show i ∈ ((View.whole main_v102).slice (win6_5.rect t)).set ↔ _
  rw [View.set_slice_whole, Rect.mem_set_unit]
  exact Iff.rfl

/-- Row `p` lies in the block of point `p / 5000`: the 20 blocks cover the result array. -/
theorem cover6 (i : S100000x40.Idx) :
    ∃ t : Fin cfg6.N, (cfg6.win 5).flush t = true ∧ i ∈ ((cfg6.win 5).blk t).view.set := by
  have hi0 : (i 0).val < 100000 := (i 0).isLt
  have hi1 : (i 1).val < 40 := (i 1).isLt
  obtain ⟨t, ht⟩ := idx_onto6 ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 40 ≤ (i 1).val ∧ (i 1).val < win6_5.index t (1 : Fin 2) * 40 + 40; omega

/-- The result array after the region is the two-layer affine map of the arrays it finds. -/
theorem final6 : (dat6 V c).arrAt 5 cfg6.N = G6 V c :=
  (dat6 V c).arrAt_eq_of_cover 5 (G6 V c) (fun t _ => flushed6_eq V c t) (cover6)

/-- The closing region's result array, entry by entry. -/
theorem affine6_array (p : Fin 100000) (l : Fin 40) :
    (dat6 V c).arrAt 5 cfg6.N (ix2 p l) = affine2 (fun p k => V c main_v99 (ix2 p k)) (fun k j => V c main_arg12 (ix2 k j)) (fun j => V c main_v100 (ix2 0 j)) (fun j l => V c main_arg14 (ix2 j l)) (fun l => V c main_v101 (ix2 0 l)) p l :=
  congrFun (final6 V c) (ix2 p l)

end Cert.KernelIdeal.RegionValue

end
-- ==== Proof.RefStages.lean ====
/-
  The reference program's stages, read in the vocabulary of the specification.

  Each theorem takes one stage of the reference (a matrix product, a layer's clipped sum, a row
  normalisation, the closing affine map) at explicit coordinates: row `p`, column `j`.  The entry of a
  matrix product at `(p, j)` depends on row `p` of the left factor and column `j` of the right one; the
  entry of a row normalisation at `(p, j)` depends on the whole row `p` of its operand (through the row's
  mean and variance) and on entry `j` of the gain and the shift.
-/
import proofs.«103953_j87402584473801_1_alg».proof.Proof.RefRead
import proofs.«103953_j87402584473801_1_alg».proof.Proof.Spec

noncomputable section

namespace Cert.ReferenceIdeal.RefStages

open Cert.ReferenceIdeal Cert.ReferenceIdeal.Read Idealize.ShloMosaic Idealize.ShloMosaic.ValueIdx Cert.GcnSpec

/-! ## The first matrix product -/

/-- Row `p` of the left factor, entry `k`. -/
private theorem lidx32 (p : Fin 100000) (j : Fin 64) (k : Fin 128) : lidx_main_v32 (ix2 p j) k = ix2 p k :=
  funext fun a => Fin.ext (by match a with | ⟨0, _⟩ => rfl | ⟨1, _⟩ => rfl)
/-- Column `j` of the right factor, entry `k`. -/
private theorem ridx32 (p : Fin 100000) (j : Fin 64) (k : Fin 128) : ridx_main_v32 (ix2 p j) k = ix2 k j :=
  funext fun a => Fin.ext (by match a with | ⟨0, _⟩ => rfl | ⟨1, _⟩ => rfl)

theorem mm0_apply (x0 : (⟨S100000x128, .f32⟩ : BufTy).Contents (Elt Ideal)) (x2 : (⟨S128x64, .f32⟩ : BufTy).Contents (Elt Ideal))
    (p : Fin 100000) (j : Fin 64) :
    val_main_v32 (F := Ideal) x0 x2 (ix2 p j) = mm (fun p k => x0 (ix2 p k)) (fun k j => x2 (ix2 k j)) p j := by
  rw [val_main_v32_apply]
  simp only [lidx32, ridx32]
  rfl

/-! ## The first layer's clipped sum -/

/-- The self-loop weight is read at the row alone. -/
private theorem idx52_51 (p : Fin 100000) (j : Fin 64) : idx_main_v51 (idx_main_v52 (ix2 p j)) = ix1 p :=
  funext fun a => Fin.ext (by match a with | ⟨0, _⟩ => rfl)
/-- The bias is read at the column alone. -/
private theorem idx56_55 (p : Fin 100000) (j : Fin 64) : idx_main_v55 (idx_main_v56 (ix2 p j)) = ix1 j :=
  funext fun a => Fin.ext (by match a with | ⟨0, _⟩ => rfl)

theorem relu1_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (p : Fin 100000) (j : Fin 64) :
    val_main_v58 (F := Ideal) x0 x1 x2 x3 (ix2 p j) =
      comb (fun (p : Fin 100000) (j : Fin 64) => val_main_v50 (F := Ideal) x0 x1 x2 (ix2 p j))
        (fun (p : Fin 100000) (j : Fin 64) => val_main_v32 (F := Ideal) x0 x2 (ix2 p j))
        (fun (p : Fin 100000) => val_main_v31 (F := Ideal) x1 (ix1 p)) (fun (j : Fin 64) => x3 (ix1 j)) p j := by
  rw [val_main_v58_apply, val_main_v57_apply, val_main_v54_apply, val_main_v53_apply, val_main_v52_apply, val_main_v51_apply, val_main_v56_apply, val_main_v55_apply, val_main_call0_v0_apply, val_main_call0_cst_apply]
  simp only [idx52_51, idx56_55, Ideal.addf_def, Ideal.mulf_def, Ideal.maximumf_def, Ideal.ofBits_def]
  rfl

/-! ## The first row normalisation

  The mean and the variance of row `p` are kept in a column of width one; every entry `(p, j)` of the row
  reads that column at `(p, 0)`. -/

private theorem idx60 (p : Fin 100000) : idx_main_v60 (ix2 p (0 : Fin 1)) = ix1 p :=
  funext fun a => Fin.ext (by match a with | ⟨0, _⟩ => rfl)
private theorem idx59 (p : Fin 100000) (k : Fin 64) : idx_main_v59 (ix1 p) k = ix2 p k :=
  funext fun a => Fin.ext (by match a with | ⟨0, _⟩ => rfl | ⟨1, _⟩ => rfl)
private theorem idx63 (p : Fin 100000) (j : Fin 64) : idx_main_v63 (ix2 p j) = ix2 p (0 : Fin 1) :=
  funext fun a => Fin.ext (by match a with | ⟨0, _⟩ => rfl | ⟨1, _⟩ => rfl)
private theorem idx67 (p : Fin 100000) : idx_main_v67 (ix2 p (0 : Fin 1)) = ix1 p :=
  funext fun a => Fin.ext (by match a with | ⟨0, _⟩ => rfl)
private theorem idx66 (p : Fin 100000) (k : Fin 64) : idx_main_v66 (ix1 p) k = ix2 p k :=
  funext fun a => Fin.ext (by match a with | ⟨0, _⟩ => rfl | ⟨1, _⟩ => rfl)
private theorem idx70 (p : Fin 100000) (j : Fin 64) : idx_main_v70 (ix2 p j) = ix2 p (0 : Fin 1) :=
  funext fun a => Fin.ext (by match a with | ⟨0, _⟩ => rfl | ⟨1, _⟩ => rfl)
private theorem idx75 (p : Fin 100000) (j : Fin 64) : idx_main_v75 (ix2 p j) = ix2 p (0 : Fin 1) :=
  funext fun a => Fin.ext (by match a with | ⟨0, _⟩ => rfl | ⟨1, _⟩ => rfl)
private theorem idx78_77 (p : Fin 100000) (j : Fin 64) : idx_main_v77 (idx_main_v78 (ix2 p j)) = ix1 j :=
  funext fun a => Fin.ext (by match a with | ⟨0, _⟩ => rfl)
private theorem idx81_80 (p : Fin 100000) (j : Fin 64) : idx_main_v80 (idx_main_v81 (ix2 p j)) = ix1 j :=
  funext fun a => Fin.ext (by match a with | ⟨0, _⟩ => rfl)

/-- The mean of row `p`: the row sum (started from the zero word) divided by the word sixty-four. -/
theorem mean1_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (p : Fin 100000) :
    val_main_v62 (F := Ideal) x0 x1 x2 x3 (ix2 p (0 : Fin 1)) = rowMean (fun (p : Fin 100000) (j : Fin 64) => val_main_v58 (F := Ideal) x0 x1 x2 x3 (ix2 p j)) p := by
  rw [val_main_v62_apply, val_main_v60_apply, val_main_v59_apply, val_main_v61_apply, val_main_cst_12_apply, val_main_cst_13_apply]
  simp only [idx60, idx59, Ideal.hostDivf_def, Ideal.ofBits_def, Ideal.ofBits_zero_f32, zero_add]
  rfl

/-- The deviation of entry `(p, j)` from the mean of its row. -/
theorem dev1_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (p : Fin 100000) (j : Fin 64) :
    val_main_v64 (F := Ideal) x0 x1 x2 x3 (ix2 p j) = (val_main_v58 (F := Ideal) x0 x1 x2 x3 (ix2 p j) - rowMean (fun (p : Fin 100000) (j : Fin 64) => val_main_v58 (F := Ideal) x0 x1 x2 x3 (ix2 p j)) p) := by
  rw [val_main_v64_apply, val_main_v63_apply, idx63, mean1_apply, Ideal.subf_def]

/-- The squared deviation. -/
theorem sq1_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (p : Fin 100000) (j : Fin 64) :
    val_main_v65 (F := Ideal) x0 x1 x2 x3 (ix2 p j) = (val_main_v58 (F := Ideal) x0 x1 x2 x3 (ix2 p j) - rowMean (fun (p : Fin 100000) (j : Fin 64) => val_main_v58 (F := Ideal) x0 x1 x2 x3 (ix2 p j)) p) * (val_main_v58 (F := Ideal) x0 x1 x2 x3 (ix2 p j) - rowMean (fun (p : Fin 100000) (j : Fin 64) => val_main_v58 (F := Ideal) x0 x1 x2 x3 (ix2 p j)) p) := by
  rw [val_main_v65_apply, dev1_apply, Ideal.mulf_def]

/-- The variance of row `p`: the mean of the squared deviations from the row's mean. -/
theorem var1_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (p : Fin 100000) :
    val_main_v69 (F := Ideal) x0 x1 x2 x3 (ix2 p (0 : Fin 1)) = rowVar (fun (p : Fin 100000) (j : Fin 64) => val_main_v58 (F := Ideal) x0 x1 x2 x3 (ix2 p j)) p := by
  rw [val_main_v69_apply, val_main_v67_apply, val_main_v66_apply, val_main_v68_apply, val_main_cst_14_apply, val_main_cst_15_apply, idx67]
  have hs : ∀ k : Fin 64, val_main_v65 (F := Ideal) x0 x1 x2 x3 (idx_main_v66 (ix1 p) k) = (val_main_v58 (F := Ideal) x0 x1 x2 x3 (ix2 p k) - rowMean (fun (p : Fin 100000) (j : Fin 64) => val_main_v58 (F := Ideal) x0 x1 x2 x3 (ix2 p j)) p) * (val_main_v58 (F := Ideal) x0 x1 x2 x3 (ix2 p k) - rowMean (fun (p : Fin 100000) (j : Fin 64) => val_main_v58 (F := Ideal) x0 x1 x2 x3 (ix2 p j)) p) :=
    fun k => by rw [idx66, sq1_apply]
  rw [Finset.sum_congr rfl (fun k _ => hs k), Ideal.hostDivf_def, Ideal.ofBits_def, Ideal.ofBits_def, Ideal.ofBits_zero_f32, zero_add]
  rfl

/-- The normalised row over the clipped sum taken as it stands. -/
theorem norm1_of_relu (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x8 : (⟨S64, .f32⟩ : BufTy).Contents (Elt Ideal))
    (x9 : (⟨S64, .f32⟩ : BufTy).Contents (Elt Ideal))
    (p : Fin 100000) (j : Fin 64) :
    val_main_v82 (F := Ideal) x0 x1 x2 x3 x8 x9 (ix2 p j) =
      rowNorm (fun (p : Fin 100000) (j : Fin 64) => val_main_v58 (F := Ideal) x0 x1 x2 x3 (ix2 p j)) (fun (j : Fin 64) => x8 (ix1 j)) (fun (j : Fin 64) => x9 (ix1 j)) p j := by
  rw [val_main_v82_apply, val_main_v79_apply, val_main_v76_apply, val_main_v71_apply, val_main_v70_apply, val_main_v75_apply, val_main_v74_apply, val_main_v73_apply, val_main_v72_apply, val_main_cst_16_apply, val_main_v78_apply, val_main_v77_apply, val_main_v81_apply, val_main_v80_apply,
    idx70, idx75, idx78_77, idx81_80, mean1_apply, var1_apply]
  simp only [Ideal.addf_def, Ideal.mulf_def, Ideal.subf_def, Ideal.hostUnary_rsqrt_def, Ideal.ofBits_def]
  rfl

theorem norm1_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x8 : (⟨S64, .f32⟩ : BufTy).Contents (Elt Ideal))
    (x9 : (⟨S64, .f32⟩ : BufTy).Contents (Elt Ideal))
    (p : Fin 100000) (j : Fin 64) :
    val_main_v82 (F := Ideal) x0 x1 x2 x3 x8 x9 (ix2 p j) =
      rowNorm (comb (fun (p : Fin 100000) (j : Fin 64) => val_main_v50 (F := Ideal) x0 x1 x2 (ix2 p j))
        (fun (p : Fin 100000) (j : Fin 64) => val_main_v32 (F := Ideal) x0 x2 (ix2 p j))
        (fun (p : Fin 100000) => val_main_v31 (F := Ideal) x1 (ix1 p)) (fun (j : Fin 64) => x3 (ix1 j))) (fun (j : Fin 64) => x8 (ix1 j)) (fun (j : Fin 64) => x9 (ix1 j)) p j := by
  have h : (fun (p : Fin 100000) (j : Fin 64) => val_main_v58 (F := Ideal) x0 x1 x2 x3 (ix2 p j)) = comb (fun (p : Fin 100000) (j : Fin 64) => val_main_v50 (F := Ideal) x0 x1 x2 (ix2 p j))
        (fun (p : Fin 100000) (j : Fin 64) => val_main_v32 (F := Ideal) x0 x2 (ix2 p j))
        (fun (p : Fin 100000) => val_main_v31 (F := Ideal) x1 (ix1 p)) (fun (j : Fin 64) => x3 (ix1 j)) :=
    funext fun p => funext fun j => relu1_apply x0 x1 x2 x3 p j
  rw [norm1_of_relu, h]

/-! ## The second layer's clipped sum -/

/-- The self-loop weight is read at the row alone. -/
private theorem idx103_102 (p : Fin 100000) (j : Fin 64) : idx_main_v102 (idx_main_v103 (ix2 p j)) = ix1 p :=
  funext fun a => Fin.ext (by match a with | ⟨0, _⟩ => rfl)
/-- The bias is read at the column alone. -/
private theorem idx107_106 (p : Fin 100000) (j : Fin 64) : idx_main_v106 (idx_main_v107 (ix2 p j)) = ix1 j :=
  funext fun a => Fin.ext (by match a with | ⟨0, _⟩ => rfl)

theorem relu2_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (p : Fin 100000) (j : Fin 64) :
    val_main_v109 (F := Ideal) x0 x1 x2 x3 x4 x5 x8 x9 (ix2 p j) =
      comb (fun (p : Fin 100000) (j : Fin 64) => val_main_v101 (F := Ideal) x0 x1 x2 x3 x4 x8 x9 (ix2 p j))
        (fun (p : Fin 100000) (j : Fin 64) => val_main_v83 (F := Ideal) x0 x1 x2 x3 x4 x8 x9 (ix2 p j))
        (fun (p : Fin 100000) => val_main_v31 (F := Ideal) x1 (ix1 p)) (fun (j : Fin 64) => x5 (ix1 j)) p j := by
  rw [val_main_v109_apply, val_main_v108_apply, val_main_v105_apply, val_main_v104_apply, val_main_v103_apply, val_main_v102_apply, val_main_v107_apply, val_main_v106_apply, val_main_call1_v0_apply, val_main_call1_cst_apply]
  simp only [idx103_102, idx107_106, Ideal.addf_def, Ideal.mulf_def, Ideal.maximumf_def, Ideal.ofBits_def]
  rfl

/-! ## The second row normalisation

  The mean and the variance of row `p` are kept in a column of width one; every entry `(p, j)` of the row
  reads that column at `(p, 0)`. -/

private theorem idx111 (p : Fin 100000) : idx_main_v111 (ix2 p (0 : Fin 1)) = ix1 p :=
  funext fun a => Fin.ext (by match a with | ⟨0, _⟩ => rfl)
private theorem idx110 (p : Fin 100000) (k : Fin 64) : idx_main_v110 (ix1 p) k = ix2 p k :=
  funext fun a => Fin.ext (by match a with | ⟨0, _⟩ => rfl | ⟨1, _⟩ => rfl)
private theorem idx114 (p : Fin 100000) (j : Fin 64) : idx_main_v114 (ix2 p j) = ix2 p (0 : Fin 1) :=
  funext fun a => Fin.ext (by match a with | ⟨0, _⟩ => rfl | ⟨1, _⟩ => rfl)
private theorem idx118 (p : Fin 100000) : idx_main_v118 (ix2 p (0 : Fin 1)) = ix1 p :=
  funext fun a => Fin.ext (by match a with | ⟨0, _⟩ => rfl)
private theorem idx117 (p : Fin 100000) (k : Fin 64) : idx_main_v117 (ix1 p) k = ix2 p k :=
  funext fun a => Fin.ext (by match a with | ⟨0, _⟩ => rfl | ⟨1, _⟩ => rfl)
private theorem idx121 (p : Fin 100000) (j : Fin 64) : idx_main_v121 (ix2 p j) = ix2 p (0 : Fin 1) :=
  funext fun a => Fin.ext (by match a with | ⟨0, _⟩ => rfl | ⟨1, _⟩ => rfl)
private theorem idx126 (p : Fin 100000) (j : Fin 64) : idx_main_v126 (ix2 p j) = ix2 p (0 : Fin 1) :=
  funext fun a => Fin.ext (by match a with | ⟨0, _⟩ => rfl | ⟨1, _⟩ => rfl)
private theorem idx129_128 (p : Fin 100000) (j : Fin 64) : idx_main_v128 (idx_main_v129 (ix2 p j)) = ix1 j :=
  funext fun a => Fin.ext (by match a with | ⟨0, _⟩ => rfl)
private theorem idx132_131 (p : Fin 100000) (j : Fin 64) : idx_main_v131 (idx_main_v132 (ix2 p j)) = ix1 j :=
  funext fun a => Fin.ext (by match a with | ⟨0, _⟩ => rfl)

/-- The mean of row `p`: the row sum (started from the zero word) divided by the word sixty-four. -/
theorem mean2_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (p : Fin 100000) :
    val_main_v113 (F := Ideal) x0 x1 x2 x3 x4 x5 x8 x9 (ix2 p (0 : Fin 1)) = rowMean (fun (p : Fin 100000) (j : Fin 64) => val_main_v109 (F := Ideal) x0 x1 x2 x3 x4 x5 x8 x9 (ix2 p j)) p := by
  rw [val_main_v113_apply, val_main_v111_apply, val_main_v110_apply, val_main_v112_apply, val_main_cst_22_apply, val_main_cst_23_apply]
  simp only [idx111, idx110, Ideal.hostDivf_def, Ideal.ofBits_def, Ideal.ofBits_zero_f32, zero_add]
  rfl

/-- The deviation of entry `(p, j)` from the mean of its row. -/
theorem dev2_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (p : Fin 100000) (j : Fin 64) :
    val_main_v115 (F := Ideal) x0 x1 x2 x3 x4 x5 x8 x9 (ix2 p j) = (val_main_v109 (F := Ideal) x0 x1 x2 x3 x4 x5 x8 x9 (ix2 p j) - rowMean (fun (p : Fin 100000) (j : Fin 64) => val_main_v109 (F := Ideal) x0 x1 x2 x3 x4 x5 x8 x9 (ix2 p j)) p) := by
  rw [val_main_v115_apply, val_main_v114_apply, idx114, mean2_apply, Ideal.subf_def]

/-- The squared deviation. -/
theorem sq2_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (p : Fin 100000) (j : Fin 64) :
    val_main_v116 (F := Ideal) x0 x1 x2 x3 x4 x5 x8 x9 (ix2 p j) = (val_main_v109 (F := Ideal) x0 x1 x2 x3 x4 x5 x8 x9 (ix2 p j) - rowMean (fun (p : Fin 100000) (j : Fin 64) => val_main_v109 (F := Ideal) x0 x1 x2 x3 x4 x5 x8 x9 (ix2 p j)) p) * (val_main_v109 (F := Ideal) x0 x1 x2 x3 x4 x5 x8 x9 (ix2 p j) - rowMean (fun (p : Fin 100000) (j : Fin 64) => val_main_v109 (F := Ideal) x0 x1 x2 x3 x4 x5 x8 x9 (ix2 p j)) p) := by
  rw [val_main_v116_apply, dev2_apply, Ideal.mulf_def]

/-- The variance of row `p`: the mean of the squared deviations from the row's mean. -/
theorem var2_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (p : Fin 100000) :
    val_main_v120 (F := Ideal) x0 x1 x2 x3 x4 x5 x8 x9 (ix2 p (0 : Fin 1)) = rowVar (fun (p : Fin 100000) (j : Fin 64) => val_main_v109 (F := Ideal) x0 x1 x2 x3 x4 x5 x8 x9 (ix2 p j)) p := by
  rw [val_main_v120_apply, val_main_v118_apply, val_main_v117_apply, val_main_v119_apply, val_main_cst_24_apply, val_main_cst_25_apply, idx118]
  have hs : ∀ k : Fin 64, val_main_v116 (F := Ideal) x0 x1 x2 x3 x4 x5 x8 x9 (idx_main_v117 (ix1 p) k) = (val_main_v109 (F := Ideal) x0 x1 x2 x3 x4 x5 x8 x9 (ix2 p k) - rowMean (fun (p : Fin 100000) (j : Fin 64) => val_main_v109 (F := Ideal) x0 x1 x2 x3 x4 x5 x8 x9 (ix2 p j)) p) * (val_main_v109 (F := Ideal) x0 x1 x2 x3 x4 x5 x8 x9 (ix2 p k) - rowMean (fun (p : Fin 100000) (j : Fin 64) => val_main_v109 (F := Ideal) x0 x1 x2 x3 x4 x5 x8 x9 (ix2 p j)) p) :=
    fun k => by rw [idx117, sq2_apply]
  rw [Finset.sum_congr rfl (fun k _ => hs k), Ideal.hostDivf_def, Ideal.ofBits_def, Ideal.ofBits_def, Ideal.ofBits_zero_f32, zero_add]
  rfl

/-- The normalised row over the clipped sum taken as it stands. -/
theorem norm2_of_relu (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (x10 : (⟨S64, .f32⟩ : BufTy).Contents (Elt Ideal))
    (x11 : (⟨S64, .f32⟩ : BufTy).Contents (Elt Ideal))
    (p : Fin 100000) (j : Fin 64) :
    val_main_v133 (F := Ideal) x0 x1 x2 x3 x4 x5 x8 x9 x10 x11 (ix2 p j) =
      rowNorm (fun (p : Fin 100000) (j : Fin 64) => val_main_v109 (F := Ideal) x0 x1 x2 x3 x4 x5 x8 x9 (ix2 p j)) (fun (j : Fin 64) => x10 (ix1 j)) (fun (j : Fin 64) => x11 (ix1 j)) p j := by
  rw [val_main_v133_apply, val_main_v130_apply, val_main_v127_apply, val_main_v122_apply, val_main_v121_apply, val_main_v126_apply, val_main_v125_apply, val_main_v124_apply, val_main_v123_apply, val_main_cst_26_apply, val_main_v129_apply, val_main_v128_apply, val_main_v132_apply, val_main_v131_apply,
    idx121, idx126, idx129_128, idx132_131, mean2_apply, var2_apply]
  simp only [Ideal.addf_def, Ideal.mulf_def, Ideal.subf_def, Ideal.hostUnary_rsqrt_def, Ideal.ofBits_def]
  rfl

theorem norm2_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x8 : (⟨S64, .f32⟩ : BufTy).Contents (Elt Ideal))
    (x9 : (⟨S64, .f32⟩ : BufTy).Contents (Elt Ideal))
    (x10 : (⟨S64, .f32⟩ : BufTy).Contents (Elt Ideal))
    (x11 : (⟨S64, .f32⟩ : BufTy).Contents (Elt Ideal))
    (p : Fin 100000) (j : Fin 64) :
    val_main_v133 (F := Ideal) x0 x1 x2 x3 x4 x5 x8 x9 x10 x11 (ix2 p j) =
      rowNorm (comb (fun (p : Fin 100000) (j : Fin 64) => val_main_v101 (F := Ideal) x0 x1 x2 x3 x4 x8 x9 (ix2 p j))
        (fun (p : Fin 100000) (j : Fin 64) => val_main_v83 (F := Ideal) x0 x1 x2 x3 x4 x8 x9 (ix2 p j))
        (fun (p : Fin 100000) => val_main_v31 (F := Ideal) x1 (ix1 p)) (fun (j : Fin 64) => x5 (ix1 j))) (fun (j : Fin 64) => x10 (ix1 j)) (fun (j : Fin 64) => x11 (ix1 j)) p j := by
  have h : (fun (p : Fin 100000) (j : Fin 64) => val_main_v109 (F := Ideal) x0 x1 x2 x3 x4 x5 x8 x9 (ix2 p j)) = comb (fun (p : Fin 100000) (j : Fin 64) => val_main_v101 (F := Ideal) x0 x1 x2 x3 x4 x8 x9 (ix2 p j))
        (fun (p : Fin 100000) (j : Fin 64) => val_main_v83 (F := Ideal) x0 x1 x2 x3 x4 x8 x9 (ix2 p j))
        (fun (p : Fin 100000) => val_main_v31 (F := Ideal) x1 (ix1 p)) (fun (j : Fin 64) => x5 (ix1 j)) :=
    funext fun p => funext fun j => relu2_apply x0 x1 x2 x3 x4 x5 x8 x9 p j
  rw [norm2_of_relu, h]

/-! ## The third layer's clipped sum -/

/-- The self-loop weight is read at the row alone. -/
private theorem idx154_153 (p : Fin 100000) (j : Fin 64) : idx_main_v153 (idx_main_v154 (ix2 p j)) = ix1 p :=
  funext fun a => Fin.ext (by match a with | ⟨0, _⟩ => rfl)
/-- The bias is read at the column alone. -/
private theorem idx158_157 (p : Fin 100000) (j : Fin 64) : idx_main_v157 (idx_main_v158 (ix2 p j)) = ix1 j :=
  funext fun a => Fin.ext (by match a with | ⟨0, _⟩ => rfl)

theorem comb3_apply (x0 : (⟨S100000x128, .f32⟩ : BufTy).Contents (Elt Ideal))
    (x1 : (⟨S2x1600000, .i32⟩ : BufTy).Contents (Elt Ideal))
    (x2 : (⟨S128x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x64, .f32⟩ : BufTy).Contents (Elt Ideal))
    (x7 : (⟨S64, .f32⟩ : BufTy).Contents (Elt Ideal))
    (x8 : (⟨S64, .f32⟩ : BufTy).Contents (Elt Ideal))
    (x9 : (⟨S64, .f32⟩ : BufTy).Contents (Elt Ideal))
    (x10 : (⟨S64, .f32⟩ : BufTy).Contents (Elt Ideal))
    (x11 : (⟨S64, .f32⟩ : BufTy).Contents (Elt Ideal))
    (p : Fin 100000) (j : Fin 64) :
    val_main_v160 (F := Ideal) x0 x1 x2 x3 x4 x5 x6 x7 x8 x9 x10 x11 (ix2 p j) =
      comb (fun (p : Fin 100000) (j : Fin 64) => val_main_v152 (F := Ideal) x0 x1 x2 x3 x4 x5 x6 x8 x9 x10 x11 (ix2 p j))
        (fun (p : Fin 100000) (j : Fin 64) => val_main_v134 (F := Ideal) x0 x1 x2 x3 x4 x5 x6 x8 x9 x10 x11 (ix2 p j))
        (fun (p : Fin 100000) => val_main_v31 (F := Ideal) x1 (ix1 p)) (fun (j : Fin 64) => x7 (ix1 j)) p j := by
  rw [val_main_v160_apply, val_main_v159_apply, val_main_v156_apply, val_main_v155_apply, val_main_v154_apply, val_main_v153_apply, val_main_v158_apply, val_main_v157_apply, val_main_call2_v0_apply, val_main_call2_cst_apply]
  simp only [idx154_153, idx158_157, Ideal.addf_def, Ideal.mulf_def, Ideal.maximumf_def, Ideal.ofBits_def]
  rfl

end Cert.ReferenceIdeal.RefStages

end
-- ==== Proof.RefStagesMM.lean ====
/-
  The reference's three late matrix-product stages, each read at an index as the stated mathematics.

  A `dot_general` contracting the left operand's columns with the right operand's rows is, at row `p` and column
  `j`, the sum over the shared axis of the left operand's row `p` times the right operand's column `j`.  The last
  result is two such products with a bias row added after each: the bias, a vector, is first laid out as one row
  and then repeated down the 100000 rows, so at row `p`, column `j` it reads the vector's entry `j`.
-/
import proofs.«103953_j87402584473801_1_alg».proof.Proof.RefRead
import proofs.«103953_j87402584473801_1_alg».proof.Proof.Spec

noncomputable section

namespace Cert.ReferenceIdeal.RefStages

open Cert.ReferenceIdeal Cert.ReferenceIdeal.Read Idealize.ShloMosaic Idealize.ShloMosaic.ValueIdx Cert.GcnSpec

/-! ## The operand indices of each product, by coordinates -/

theorem mmB_lidx83 (p : Fin 100000) (j k : Fin 64) : lidx_main_v83 (ix2 p j) k = ix2 p k := funext fun a => Fin.ext (by match a with | ⟨0, _⟩ => rfl | ⟨1, _⟩ => rfl)
theorem mmB_ridx83 (p : Fin 100000) (j k : Fin 64) : ridx_main_v83 (ix2 p j) k = ix2 k j := funext fun a => Fin.ext (by match a with | ⟨0, _⟩ => rfl | ⟨1, _⟩ => rfl)
theorem mmB_lidx134 (p : Fin 100000) (j k : Fin 64) : lidx_main_v134 (ix2 p j) k = ix2 p k := funext fun a => Fin.ext (by match a with | ⟨0, _⟩ => rfl | ⟨1, _⟩ => rfl)
theorem mmB_ridx134 (p : Fin 100000) (j k : Fin 64) : ridx_main_v134 (ix2 p j) k = ix2 k j := funext fun a => Fin.ext (by match a with | ⟨0, _⟩ => rfl | ⟨1, _⟩ => rfl)
theorem mmB_lidx161 (p : Fin 100000) (j k : Fin 64) : lidx_main_v161 (ix2 p j) k = ix2 p k := funext fun a => Fin.ext (by match a with | ⟨0, _⟩ => rfl | ⟨1, _⟩ => rfl)
theorem mmB_ridx161 (p : Fin 100000) (j k : Fin 64) : ridx_main_v161 (ix2 p j) k = ix2 k j := funext fun a => Fin.ext (by match a with | ⟨0, _⟩ => rfl | ⟨1, _⟩ => rfl)
theorem mmB_lidx165 (p : Fin 100000) (l : Fin 40) (j : Fin 64) : lidx_main_v165 (ix2 p l) j = ix2 p j := funext fun a => Fin.ext (by match a with | ⟨0, _⟩ => rfl | ⟨1, _⟩ => rfl)
theorem mmB_ridx165 (p : Fin 100000) (l : Fin 40) (j : Fin 64) : ridx_main_v165 (ix2 p l) j = ix2 j l := funext fun a => Fin.ext (by match a with | ⟨0, _⟩ => rfl | ⟨1, _⟩ => rfl)
/-- The first bias, repeated down the rows, reads the vector's entry `j` at every row. -/
theorem mmB_idx163 (p : Fin 100000) (j : Fin 64) : idx_main_v162 (idx_main_v163 (ix2 p j)) = ix1 j := funext fun a => Fin.ext (by match a with | ⟨0, _⟩ => rfl)
/-- The second bias likewise. -/
theorem mmB_idx167 (p : Fin 100000) (l : Fin 40) : idx_main_v166 (idx_main_v167 (ix2 p l)) = ix1 l := funext fun a => Fin.ext (by match a with | ⟨0, _⟩ => rfl)

/-! ## The two 64×64 products after the normalised layers -/

theorem mm1_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x8 x9 : (⟨S64, .f32⟩ : BufTy).Contents (Elt Ideal)) (p : Fin 100000) (j : Fin 64) :
    val_main_v83 (F := Ideal) x0 x1 x2 x3 x4 x8 x9 (ix2 p j) = mm (fun p k => val_main_v82 (F := Ideal) x0 x1 x2 x3 x8 x9 (ix2 p k)) (fun k j => x4 (ix2 k j)) p j := by
  rw [val_main_v83_apply]
  unfold mm
  simp only [mmB_lidx83, mmB_ridx83]

theorem mm2_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x8 x9 x10 x11 : (⟨S64, .f32⟩ : BufTy).Contents (Elt Ideal)) (p : Fin 100000) (j : Fin 64) :
    val_main_v134 (F := Ideal) x0 x1 x2 x3 x4 x5 x6 x8 x9 x10 x11 (ix2 p j) = mm (fun p k => val_main_v133 (F := Ideal) x0 x1 x2 x3 x4 x5 x8 x9 x10 x11 (ix2 p k)) (fun k j => x6 (ix2 k j)) p j := by
  rw [val_main_v134_apply]
  unfold mm
  simp only [mmB_lidx134, mmB_ridx134]

/-! ## The closing two-layer affine map -/

theorem affine_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 x9 x10 x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x40, .f32⟩ : BufTy).Contents (Elt Ideal)) (x15 : (⟨S40, .f32⟩ : BufTy).Contents (Elt Ideal)) (p : Fin 100000) (l : Fin 40) :
    val_main_v168 (F := Ideal) x0 x1 x2 x3 x4 x5 x6 x7 x8 x9 x10 x11 x12 x13 x14 x15 (ix2 p l) = affine2 (fun p k => val_main_v160 (F := Ideal) x0 x1 x2 x3 x4 x5 x6 x7 x8 x9 x10 x11 (ix2 p k)) (fun k j => x12 (ix2 k j)) (fun j => x13 (ix1 j)) (fun j l => x14 (ix2 j l)) (fun l => x15 (ix1 l)) p l := by
  rw [val_main_v168_apply, val_main_v165_apply, val_main_v167_apply, val_main_v166_apply, mmB_idx167]
  unfold affine2 mm
  refine congrArg₂ (· + ·) (Finset.sum_congr rfl fun j _ => congrArg₂ (· * ·) ?_ ?_) rfl
  · rw [mmB_lidx165, val_main_v164_apply, val_main_v161_apply, val_main_v163_apply, val_main_v162_apply, mmB_idx163]
    simp only [mmB_lidx161, mmB_ridx161]
    rfl
  · rw [mmB_ridx165]

end Cert.ReferenceIdeal.RefStages

end
-- ==== Proof.Layers.lean ====
/-
  The kernel program's seven region outputs are seven of the reference's stages.

  Walking forward through the run: the first region's output is the reference's first matrix product because both
  are the sum over the shared axis of the same two argument arrays; the host stretch after it turns that equality into
  the equality of the two aggregations (`aggOf` of equal tables); the combine-and-normalise region then reads, row by
  row, the aggregation, the matrix product, the self-loop weight, the bias, the gain and the shift — each already
  identified with the reference's — and computes the formula the reference's stages compose to; and so on through the
  second and third layers to the closing affine map.  Each step is: the region's closed form (the kernel side, read off
  the tiled run), the reference's stages read at an index (the other side), and the identification of the inputs.
-/
import proofs.«103953_j87402584473801_1_alg».proof.Proof.Hosts
import proofs.«103953_j87402584473801_1_alg».proof.Proof.RegionMatmul
import proofs.«103953_j87402584473801_1_alg».proof.Proof.RegionCombine
import proofs.«103953_j87402584473801_1_alg».proof.Proof.RegionCombineNorm
import proofs.«103953_j87402584473801_1_alg».proof.Proof.RegionAffine
import proofs.«103953_j87402584473801_1_alg».proof.Proof.RefStages
import proofs.«103953_j87402584473801_1_alg».proof.Proof.RefStagesMM

set_option maxRecDepth 16384

noncomputable section

namespace Cert.Bridge

open Cert.KernelIdeal Cert.KernelIdeal.Gen Cert.KernelIdeal.Boundary
open Idealize.ShloMosaic Idealize.ShloMosaic.TcCoe Idealize.SL.Sem Idealize.ShloMosaic.StableHlo Idealize.ShloMosaic.ValueIdx
open Cert.GcnSpec

variable (m : (ℓ : Loc nD τ sig) → Buf (Elt Ideal) ℓ) (ρ : Dev nD → PrngReg) (c : Dev nD)

/-- The reference's second and third aggregation stages, like its first, are `aggOf` of the matrix product before them. -/
theorem ref_agg2 (x0 x1 x2 x3 x4 x8 x9) : Cert.ReferenceIdeal.Read.val_main_v101 (F := Ideal) x0 x1 x2 x3 x4 x8 x9 = aggOf x1 (Cert.ReferenceIdeal.Read.val_main_v83 (F := Ideal) x0 x1 x2 x3 x4 x8 x9) := rfl
theorem ref_agg3 (x0 x1 x2 x3 x4 x5 x6 x8 x9 x10 x11) : Cert.ReferenceIdeal.Read.val_main_v152 (F := Ideal) x0 x1 x2 x3 x4 x5 x6 x8 x9 x10 x11 = aggOf x1 (Cert.ReferenceIdeal.Read.val_main_v134 (F := Ideal) x0 x1 x2 x3 x4 x5 x6 x8 x9 x10 x11) := rfl

/-! ## Layer one -/

/-- Region 0's output: `x · W₀`. -/
theorem prod1 : W2 m ρ c (Proc.devRef .tc main_v33) = Cert.ReferenceIdeal.Read.val_main_v32 (F := Ideal) (m ((c : Thread nD τ).loc main_arg0)) (m ((c : Thread nD τ).loc main_arg2)) := by
  refine (W2_arr m ρ c 2).trans ?_
  funext i
  obtain ⟨p, j, rfl⟩ : ∃ (p : Fin 100000) (j : Fin 64), i = ix2 p j := ⟨i 0, i 1, eq_ix2 i⟩
  refine (Cert.KernelIdeal.RegionValue.matmul0_array (V1 m ρ) c p j).trans ?_
  rw [Cert.ReferenceIdeal.RefStages.mm0_apply]
  have e0 : V1 m ρ c main_arg0 = (m ((c : Thread nD τ).loc main_arg0)) := (keep1 m ρ c main_arg0 (by decide)).trans (launch m ρ c main_arg0)
  have e2 : V1 m ρ c main_arg2 = (m ((c : Thread nD τ).loc main_arg2)) := (keep1 m ρ c main_arg2 (by decide)).trans (launch m ρ c main_arg2)
  rw [e0, e2]

/-- The first aggregation. -/
theorem agg1 : W3 m ρ c (Proc.devRef .tc main_v51) = Cert.ReferenceIdeal.Read.val_main_v50 (F := Ideal) (m ((c : Thread nD τ).loc main_arg0)) (m ((c : Thread nD τ).loc main_arg1)) (m ((c : Thread nD τ).loc main_arg2)) :=
  (agg3 m ρ c _ (prod1 m ρ c)).trans (ref_agg1 _ _ _).symm

/-- Region 1's output: the first layer, combined and normalised. -/
theorem layer1 : W4 m ρ c (Proc.devRef .tc main_v55) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (W4_arr m ρ c 6).trans ?_
  funext i
  obtain ⟨p, j, rfl⟩ : ∃ (p : Fin 100000) (j : Fin 64), i = ix2 p j := ⟨i 0, i 1, eq_ix2 i⟩
  refine (Cert.KernelIdeal.RegionValue.combineNorm1_array (V3 m ρ) c p j).trans ?_
  rw [Cert.ReferenceIdeal.RefStages.norm1_apply]
  have eA : V3 m ρ c main_v51 = Cert.ReferenceIdeal.Read.val_main_v50 (F := Ideal) (m ((c : Thread nD τ).loc main_arg0)) (m ((c : Thread nD τ).loc main_arg1)) (m ((c : Thread nD τ).loc main_arg2)) := agg1 m ρ c
  have eH : V3 m ρ c main_v33 = Cert.ReferenceIdeal.Read.val_main_v32 (F := Ideal) (m ((c : Thread nD τ).loc main_arg0)) (m ((c : Thread nD τ).loc main_arg2)) := (keep3 m ρ c main_v33 (by decide)).trans (prod1 m ρ c)
  have eS : ∀ p : Fin 100000, (V3 m ρ c main_v32 : S100000x1.Idx → EReal) (ix2 p 0) = Cert.ReferenceIdeal.Read.val_main_v31 (F := Ideal) (m ((c : Thread nD τ).loc main_arg1)) (ix1 p) := fun p => by
    rw [show V3 m ρ c main_v32 = W1 m ρ c (Proc.devRef .tc main_v32) from selfW3 m ρ c]; exact selfW1_apply m ρ c p
  have eB : ∀ j : Fin 64, (V3 m ρ c main_v52 : S1x64.Idx → EReal) (ix2 0 j) = (m ((c : Thread nD τ).loc main_arg3)) (ix1 j) := bias3 m ρ c
  have eG : ∀ j : Fin 64, (V3 m ρ c main_v53 : S1x64.Idx → EReal) (ix2 0 j) = (m ((c : Thread nD τ).loc main_arg8)) (ix1 j) := gain3 m ρ c
  have eD : ∀ j : Fin 64, (V3 m ρ c main_v54 : S1x64.Idx → EReal) (ix2 0 j) = (m ((c : Thread nD τ).loc main_arg9)) (ix1 j) := shift3 m ρ c
  simp only [eA, eH, eS, eB, eG, eD]

/-! ## Layer two -/

/-- Region 2's output: the first layer times `W₁`. -/
theorem prod2 : W5 m ρ c (Proc.devRef .tc main_v56) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  refine (W5_arr m ρ c 2).trans ?_
  funext i
  obtain ⟨p, j, rfl⟩ : ∃ (p : Fin 100000) (j : Fin 64), i = ix2 p j := ⟨i 0, i 1, eq_ix2 i⟩
  refine (Cert.KernelIdeal.RegionValue.matmul2_array (V4 m ρ) c p j).trans ?_
  rw [Cert.ReferenceIdeal.RefStages.mm1_apply]
  have eH : V4 m ρ c main_v55 = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := layer1 m ρ c
  have eW : V4 m ρ c main_arg4 = (m ((c : Thread nD τ).loc main_arg4)) :=
    (keep4 m ρ c main_arg4 (by decide)).trans ((keep3 m ρ c main_arg4 (by decide)).trans (arg_at2 m ρ c main_arg4 (by decide) (by decide)))
  rw [eH, eW]

theorem agg2 : W6 m ρ c (Proc.devRef .tc main_v74) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) :=
  (agg6 m ρ c _ (prod2 m ρ c)).trans (ref_agg2 _ _ _ _ _ _ _).symm

/-- Region 3's output: the second layer, combined and normalised. -/
theorem layer2 : W7 m ρ c (Proc.devRef .tc main_v78) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  refine (W7_arr m ρ c 6).trans ?_
  funext i
  obtain ⟨p, j, rfl⟩ : ∃ (p : Fin 100000) (j : Fin 64), i = ix2 p j := ⟨i 0, i 1, eq_ix2 i⟩
  refine (Cert.KernelIdeal.RegionValue.combineNorm3_array (V6 m ρ) c p j).trans ?_
  rw [Cert.ReferenceIdeal.RefStages.norm2_apply]
  have eA : V6 m ρ c main_v74 = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := agg2 m ρ c
  have eH : V6 m ρ c main_v56 = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := (keep6 m ρ c main_v56 (by decide)).trans (prod2 m ρ c)
  have eS : ∀ p : Fin 100000, (V6 m ρ c main_v32 : S100000x1.Idx → EReal) (ix2 p 0) = Cert.ReferenceIdeal.Read.val_main_v31 (F := Ideal) (m ((c : Thread nD τ).loc main_arg1)) (ix1 p) := fun p => by
    rw [show V6 m ρ c main_v32 = W1 m ρ c (Proc.devRef .tc main_v32) from selfW6 m ρ c]; exact selfW1_apply m ρ c p
  have eB : ∀ j : Fin 64, (V6 m ρ c main_v75 : S1x64.Idx → EReal) (ix2 0 j) = (m ((c : Thread nD τ).loc main_arg5)) (ix1 j) := bias6 m ρ c
  have eG : ∀ j : Fin 64, (V6 m ρ c main_v76 : S1x64.Idx → EReal) (ix2 0 j) = (m ((c : Thread nD τ).loc main_arg10)) (ix1 j) := gain6 m ρ c
  have eD : ∀ j : Fin 64, (V6 m ρ c main_v77 : S1x64.Idx → EReal) (ix2 0 j) = (m ((c : Thread nD τ).loc main_arg11)) (ix1 j) := shift6 m ρ c
  simp only [eA, eH, eS, eB, eG, eD]

/-! ## Layer three -/

/-- Region 4's output: the second layer times `W₂`. -/
theorem prod3 : W8 m ρ c (Proc.devRef .tc main_v79) = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  refine (W8_arr m ρ c 2).trans ?_
  funext i
  obtain ⟨p, j, rfl⟩ : ∃ (p : Fin 100000) (j : Fin 64), i = ix2 p j := ⟨i 0, i 1, eq_ix2 i⟩
  refine (Cert.KernelIdeal.RegionValue.matmul4_array (V7 m ρ) c p j).trans ?_
  rw [Cert.ReferenceIdeal.RefStages.mm2_apply]
  have eH : V7 m ρ c main_v78 = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := layer2 m ρ c
  have eW : V7 m ρ c main_arg6 = (m ((c : Thread nD τ).loc main_arg6)) :=
    (keep7 m ρ c main_arg6 (by decide)).trans ((keep6 m ρ c main_arg6 (by decide)).trans (arg_at5 m ρ c main_arg6 (by decide) (by decide) (by decide) (by decide) (by decide)))
  rw [eH, eW]

theorem agg3' : W9 m ρ c (Proc.devRef .tc main_v97) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) :=
  (agg9 m ρ c _ (prod3 m ρ c)).trans (ref_agg3 _ _ _ _ _ _ _ _ _ _ _).symm

/-- Region 5's output: the third layer, combined (no normalisation). -/
theorem layer3 : W10 m ρ c (Proc.devRef .tc main_v99) = Cert.ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 4).trans ?_
  funext i
  obtain ⟨p, j, rfl⟩ : ∃ (p : Fin 100000) (j : Fin 64), i = ix2 p j := ⟨i 0, i 1, eq_ix2 i⟩
  refine (Cert.KernelIdeal.RegionValue.combine5_array (V9 m ρ) c p j).trans ?_
  rw [Cert.ReferenceIdeal.RefStages.comb3_apply]
  have eA : V9 m ρ c main_v97 = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := agg3' m ρ c
  have eH : V9 m ρ c main_v79 = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := (keep9 m ρ c main_v79 (by decide)).trans (prod3 m ρ c)
  have eS : ∀ p : Fin 100000, (V9 m ρ c main_v32 : S100000x1.Idx → EReal) (ix2 p 0) = Cert.ReferenceIdeal.Read.val_main_v31 (F := Ideal) (m ((c : Thread nD τ).loc main_arg1)) (ix1 p) := fun p => by
    rw [show V9 m ρ c main_v32 = W1 m ρ c (Proc.devRef .tc main_v32) from selfW9 m ρ c]; exact selfW1_apply m ρ c p
  have eB : ∀ j : Fin 64, (V9 m ρ c main_v98 : S1x64.Idx → EReal) (ix2 0 j) = (m ((c : Thread nD τ).loc main_arg7)) (ix1 j) := bias9 m ρ c
  simp only [eA, eH, eS, eB]

/-! ## The closing affine map -/

/-- Region 6's output, the program's result: the reference's result stage. -/
theorem result : W12 m ρ c (Proc.devRef .tc main_v102) = Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 5).trans ?_
  funext i
  obtain ⟨p, l, rfl⟩ : ∃ (p : Fin 100000) (l : Fin 40), i = ix2 p l := ⟨i 0, i 1, eq_ix2 i⟩
  refine (Cert.KernelIdeal.RegionValue.affine6_array (V11 m ρ) c p l).trans ?_
  rw [Cert.ReferenceIdeal.RefStages.affine_apply]
  have eH : V11 m ρ c main_v99 = Cert.ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := (keep11 m ρ c main_v99 (by decide)).trans (layer3 m ρ c)
  have eW0 : V11 m ρ c main_arg12 = (m ((c : Thread nD τ).loc main_arg12)) := (keep11 m ρ c main_arg12 (by decide)).trans (arg_at10 m ρ c main_arg12 (by decide) (by decide) (by decide) (by decide) (by decide) (by decide) (by decide) (by decide) (by decide) (by decide))
  have eW1 : V11 m ρ c main_arg14 = (m ((c : Thread nD τ).loc main_arg14)) := (keep11 m ρ c main_arg14 (by decide)).trans (arg_at10 m ρ c main_arg14 (by decide) (by decide) (by decide) (by decide) (by decide) (by decide) (by decide) (by decide) (by decide) (by decide))
  have eB0 : ∀ j : Fin 64, (V11 m ρ c main_v100 : S1x64.Idx → EReal) (ix2 0 j) = (m ((c : Thread nD τ).loc main_arg13)) (ix1 j) := bias11 m ρ c
  have eB1 : ∀ l : Fin 40, (V11 m ρ c main_v101 : S1x40.Idx → EReal) (ix2 0 l) = (m ((c : Thread nD τ).loc main_arg15)) (ix1 l) := shift11 m ρ c
  simp only [eH, eW0, eW1, eB0, eB1]

end Cert.Bridge

end
-- ==== Proof.lean ====
/-
  A three-layer graph convolution with row normalisation and a closing two-layer affine map, tiled over the node
  axis in seven regions with the edge gathers and scatter-adds on the host, against the plain array program.

  On the extended reals the two programs are the same composition of the same operations: per layer the matrix
  product `h·W` (a sum over the shared axis, whichever way it is tiled), the messages gathered along the edges, weighted
  and summed into their destinations (one and the same host term on both sides), the self-loop term, the bias, the
  clipping at zero, and for the first two layers the row normalisation (mean, variance, inverse square root, gain and
  shift — the same float words on both sides); a change of float format is the identity.  No sum is regrouped and no
  factor moved across a sum, so the precondition (finite inputs) is never opened.

  The frames of the two kernel programs are the generated ones; the reference's frame is its run with the result
  dropped.  The ideal pass rewrote nothing, so the idealization conjunct is trivial.  For the value claim, the kernel
  program's run ends with its result buffer at the last segment boundary's contents (Proof/ResultRun.lean), which is
  the reference's result stage of the same arguments (Proof/Layers.lean), and the reference's run ends at that stage
  (Proof/RefRun.lean); memories that agree on the arguments therefore end with equal results.
-/
import proofs.«103953_j87402584473801_1_alg».proof.Defs
import proofs.«103953_j87402584473801_1_alg».proof.Proof.Gen.Kernel
import proofs.«103953_j87402584473801_1_alg».proof.Proof.Gen.Kernel.Skeleton
import proofs.«103953_j87402584473801_1_alg».proof.Proof.Gen.Kernel.Launch
import proofs.«103953_j87402584473801_1_alg».proof.Proof.Gen.Kernel.Points
import proofs.«103953_j87402584473801_1_alg».proof.Proof.Gen.Kernel.Frame
import proofs.«103953_j87402584473801_1_alg».proof.Proof.Gen.KernelIdeal
import proofs.«103953_j87402584473801_1_alg».proof.Proof.Gen.KernelIdeal.Skeleton
import proofs.«103953_j87402584473801_1_alg».proof.Proof.Gen.KernelIdeal.Launch
import proofs.«103953_j87402584473801_1_alg».proof.Proof.Gen.KernelIdeal.Points
import proofs.«103953_j87402584473801_1_alg».proof.Proof.Gen.KernelIdeal.Frame
import proofs.«103953_j87402584473801_1_alg».proof.Proof.Gen.ReferenceIdeal
import proofs.«103953_j87402584473801_1_alg».proof.Proof.Gen.Pre_finite_inputs
import proofs.«103953_j87402584473801_1_alg».proof.Proof.ResultRun
import proofs.«103953_j87402584473801_1_alg».proof.Proof.RefRun
import proofs.«103953_j87402584473801_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the reference's result stage of those arguments. -/
theorem algebraic : Cert.algebraic_KernelIdeal_ReferenceIdeal := by
  intro m ρ m' ρ' _ hagree
  refine ⟨fun c => Cert.KernelIdeal.Gen.W12 m ρ c (Proc.devRef .tc Cert.KernelIdeal.main_v102),
    Cert.KernelIdeal.ResultRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [e0, e1, e2, e3, e4, e5, e6, e7, e8, e9, e10, e11, e12, e13, e14, e15]
  exact (Cert.Bridge.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
